-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S4x1x4096 : Shape := ⟨3, ![4, 1, 4096]⟩
abbrev S1x3x4096 : Shape := ⟨3, ![1, 3, 4096]⟩
abbrev S1x512x3 : Shape := ⟨3, ![1, 512, 3]⟩
abbrev S1x1x512 : Shape := ⟨3, ![1, 1, 512]⟩
abbrev S1x1x4096 : Shape := ⟨3, ![1, 1, 4096]⟩
abbrev S3x4096 : Shape := ⟨2, ![3, 4096]⟩
abbrev S512x3 : Shape := ⟨2, ![512, 3]⟩
abbrev S512x4096 : Shape := ⟨2, ![512, 4096]⟩
abbrev S512x1 : Shape := ⟨2, ![512, 1]⟩
abbrev S1x4096 : Shape := ⟨2, ![1, 4096]⟩
abbrev S512 : Shape := ⟨1, ![512]⟩
abbrev S4096 : Shape := ⟨1, ![4096]⟩
abbrev S1x512 : Shape := ⟨2, ![1, 512]⟩
abbrev S4x4096 : Shape := ⟨2, ![4, 4096]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x1x4096, .f32⟩
  | .hbm, ⟨4, _⟩ => ⟨S4x1x4096, .f32⟩
  | .hbm, ⟨5, _⟩ => ⟨S4x4096, .f32⟩
  | .hbm, ⟨6, _⟩ => ⟨S4x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x3x4096, .f32⟩
  | .local _ .vmem, ⟨1, _⟩ => ⟨S1x3x4096, .f32⟩
  | .local _ .vmem, ⟨2, _⟩ => ⟨S1x512x3, .f32⟩
  | .local _ .vmem, ⟨3, _⟩ => ⟨S1x512x3, .f32⟩
  | .local _ .vmem, ⟨4, _⟩ => ⟨S1x1x512, .f32⟩
  | .local _ .vmem, ⟨5, _⟩ => ⟨S1x1x512, .f32⟩
  | .local _ .vmem, ⟨6, _⟩ => ⟨S1x1x4096, .f32⟩
  | .local _ .vmem, ⟨7, _⟩ => ⟨S1x1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v35 : BitVec 1 := Scalar.cmpi .eq arg1 c0_i32
  let v36 : BitVec 32 := Scalar.extui v35
  let c0_i32_10 : BitVec 32 := 0#32
  let v37 : BitVec 1 := Scalar.cmpi .ne v36 c0_i32_10
  v37

def k0_cond2 (i : grid0.Coords) : BitVec 1 :=
  let arg1 : BitVec 32 := BitVec.ofNat 32 (i 1).val
  let c0_i32_11 : BitVec 32 := 0#32
  let v38 : BitVec 1 := Scalar.cmpi .ne arg1 c0_i32_11
  let v39 : BitVec 32 := Scalar.extui v38
  let c0_i32_12 : BitVec 32 := 0#32
  let v40 : BitVec 1 := Scalar.cmpi .ne v39 c0_i32_12
  v40

def k0_cond3 (i : grid0.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_13 : BitVec 32 := 0#32
  let v43 : BitVec 1 := Scalar.cmpi .ne v42 c0_i32_13
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4x4096x3_S4x3x4096_0_2_1 : S4x4096x3.Transposes [0, 2, 1] S4x3x4096
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  slices_S512x3_o0_0_S512x1 : S512x3.Slices ![0, 0] S512x1
  slices_S3x4096_o0_0_S1x4096 : S3x4096.Slices ![0, 0] S1x4096
  broadcasts_S512x1_S512x4096 : S512x1.Broadcasts S512x4096
  broadcasts_S1x4096_S512x4096 : S1x4096.Broadcasts S512x4096
  slices_S512x3_o0_1_S512x1 : S512x3.Slices ![0, 1] S512x1
  slices_S3x4096_o1_0_S1x4096 : S3x4096.Slices ![1, 0] S1x4096
  slices_S512x3_o0_2_S512x1 : S512x3.Slices ![0, 2] S512x1
  slices_S3x4096_o2_0_S1x4096 : S3x4096.Slices ![2, 0] S1x4096
  reduces_S512x4096_S512 : S512x4096.Reduces [1] S512
  shapeCasts_S512_S512x1 : S512.ShapeCasts S512x1
  reduces_S512x4096_S4096 : S512x4096.Reduces [0] S4096
  shapeCasts_S4096_S1x4096 : S4096.ShapeCasts S1x4096
  transposes_S512x1_p1_0_S1x512 : S512x1.Transposes [1, 0] S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S4x1x4096_S4x4096 : S4x1x4096.ShapeCasts S4x4096
  reducesTo_S4x4096_S_d0_1 : S4x4096.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x4096.size a ≤ S4x3x4096.size a
  hwx0_0 : ∀ i : grid0.Coords, EltTy.bits .f32 = 32 ∨ (Rect.block (s := S4x3x4096) S1x3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S4x4096x3.size a
  hwx0_1 : ∀ i : grid0.Coords, EltTy.bits .f32 = 32 ∨ (Rect.block (s := S4x4096x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x4096.size a
  hwx0_2 : ∀ i : grid0.Coords, EltTy.bits .f32 = 32 ∨ (Rect.block (s := S4x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)

variable [Facts₀]

abbrev win0_0 : Pipeline.Window sig grid0 :=
  Pipeline.Window.ofSpec (Memref.whole main_v0) S1x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1x3, .f32⟩
  | .hbm, ⟨3, _⟩ => ⟨S4x1x4096x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_

variable [Facts₀]

class Facts : Prop extends Facts₀ where

variable [Facts]
-- ==== Proof.BitsFrame.Cases.lean ====
/-
  The body's three guards over the grid. The grid is 4 batches by 8 target tiles, visited in row-major order, so a point's
  number modulo 8 is its tile index within the batch. The first guard (tile index = 0) starts a batch's running minimum, the
  second (tile index ≠ 0) folds the tile's column minima into it, the third (tile index = 7) takes the square root once the
  batch's last tile has been folded in. Every point satisfies the first guard or the second, so the running-minimum window
  is stored into at every point.
-/
import proofs.«104261_j43748536877744_2_alg».proof.Proof.Gen.Kernel.Frame
import proofs.«104261_j43748536877744_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The first guard holds exactly at the first tile of each batch. -/
theorem guard_first : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second guard holds exactly at the later tiles of each batch. -/
theorem guard_later : ∀ t : Fin cfg0.N, k0_cond2 (grid0.coords t) = 1#1 ↔ ¬t.val % 8 = 0 :=
  (by decide +kernel : ∀ t : Fin grid0.N, k0_cond2 (grid0.coords t) = 1#1 ↔ ¬t.val % 8 = 0)

/-- The third guard holds exactly at the last tile of each batch. -/
theorem guard_last : ∀ t : Fin cfg0.N, k0_cond3 (grid0.coords t) = 1#1 ↔ t.val % 8 = 7 :=
  (by decide +kernel : ∀ t : Fin grid0.N, k0_cond3 (grid0.coords t) = 1#1 ↔ t.val % 8 = 7)

/-- The guards read the tile index only, and one of the first two holds whatever it is: no grid coordinates leave the
    running-minimum window without a store. -/
theorem live3 (i : grid0.Coords) : cfg0.idle 3 i = false := by
  show (!(k0_cond1 i == 1#1) && !(k0_cond2 i == 1#1) && !(k0_cond3 i == 1#1)) = false
  unfold k0_cond1 k0_cond2 k0_cond3
  generalize i 1 = a
  revert a
  decide +kernel

/-- One staging buffer of each output window, through which the window's contents are stated. -/
abbrev VO2 : View sig .tc .vmem S1x1x512 .f32 := (Memref.whole cc0_stg2_0 : Memref sig .tc .vmem S1x1x512 .f32).view
abbrev VO3 : View sig .tc .vmem S1x1x4096 .f32 := (Memref.whole cc0_stg3_0 : Memref sig .tc .vmem S1x1x4096 .f32).view

/-- Each window's current staging memref at point `t`, as the pipeline passes it to the body, and its wholeness. -/
abbrev ms0 (t : Fin cfg0.N) : Memref sig .tc .vmem S1x3x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

end Cert.Kernel.Hand

end
-- ==== Proof.BitsFrame.RunFirst.lean ====
/-
  The body run at the first tile of a batch: the tile's row minima (square-rooted) go to the first output, the tile's column minima START the running minimum in the second, whatever it held.
  The run is stated on any whole staging memrefs: the two inputs at their contents, the first output at anything, the second output at anything; it ends with the inputs as they were and each output's
  buffer overwritten by the pieces the body stored, which the symbolic run finds.
-/
import proofs.«104261_j43748536877744_2_alg».proof.Proof.BitsFrame.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in each output's staging memref, as pieces (last first), with the proof that the body runs
    to a continuation holding the inputs unchanged and the outputs so overwritten. -/
noncomputable def runFirst (c : Dev nD) (i : grid0.Coords)
    (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (hc3 : ¬k0_cond3 i = 1#1)
    (x0 : Vec F S1x3x4096 .f32) (x1 : Vec F S1x512x3 .f32) :
    Σ' (L2 : List (View.Piece (Elt F) S1x1x512 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hand

end
-- ==== Proof.BitsFrame.RunLater.lean ====
/-
  The body run at a middle tile of a batch: the tile's row minima (square-rooted) go to the first output, the tile's column minima are folded by an elementwise minimum into the running minimum the second output holds.
  The run is stated on any whole staging memrefs: the two inputs at their contents, the first output at anything, the second output at the running minimum `xo`; it ends with the inputs as they were and each output's
  buffer overwritten by the pieces the body stored, which the symbolic run finds.
-/
import proofs.«104261_j43748536877744_2_alg».proof.Proof.BitsFrame.RunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in each output's staging memref, as pieces (last first), with the proof that the body runs
    to a continuation holding the inputs unchanged and the outputs so overwritten. -/
noncomputable def runLater (c : Dev nD) (i : grid0.Coords)
    (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : ¬k0_cond3 i = 1#1)
    (x0 : Vec F S1x3x4096 .f32) (x1 : Vec F S1x512x3 .f32) (xo : Vec F S1x1x4096 .f32) :
    Σ' (L2 : List (View.Piece (Elt F) S1x1x512 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hand

end
-- ==== Proof.BitsFrame.RunLast.lean ====
/-
  The body run at the last tile of a batch: as at a middle tile, and then the completed running minimum is replaced by its elementwise square root.
  The run is stated on any whole staging memrefs: the two inputs at their contents, the first output at anything, the second output at the running minimum `xo`; it ends with the inputs as they were and each output's
  buffer overwritten by the pieces the body stored, which the symbolic run finds.
-/
import proofs.«104261_j43748536877744_2_alg».proof.Proof.BitsFrame.RunLater

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in each output's staging memref, as pieces (last first), with the proof that the body runs
    to a continuation holding the inputs unchanged and the outputs so overwritten. -/
noncomputable def runLast (c : Dev nD) (i : grid0.Coords)
    (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : k0_cond3 i = 1#1)
    (x0 : Vec F S1x3x4096 .f32) (x1 : Vec F S1x512x3 .f32) (xo : Vec F S1x1x4096 .f32) :
    Σ' (L2 : List (View.Piece (Elt F) S1x1x512 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hand

end
-- ==== Proof.BitsFrame.Points.lean ====
/-
  The frame of the program: what the two output windows' staging buffers hold after the body at every grid point, the
  pipeline's proof data built from it, the body obligation at every point, and the run of @main.

  The first output's block (the square roots of the tile's row minima) is rewritten whole at every point and written back
  at every point. The second output's block is indexed by the batch alone: it is written back only after a batch's last
  tile, and between a batch's tiles its buffer carries the running elementwise minimum of the tiles' column minima — started
  at the batch's first tile, folded into at each later tile, and square-rooted at the last.
-/
import proofs.«104261_j43748536877744_2_alg».proof.Proof.BitsFrame.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The guards at a point, by its number modulo 8 -/

theorem gFirst (t : Fin cfg0.N) (h0 : t.val % 8 = 0) :
    k0_cond1 (grid0.coords t) = 1#1 ∧ ¬k0_cond2 (grid0.coords t) = 1#1 ∧ ¬k0_cond3 (grid0.coords t) = 1#1 :=
  ⟨(guard_first t).mpr h0, fun h => (guard_later t).mp h h0, fun h => by have := (guard_last t).mp h; omega⟩

theorem gLater (t : Fin cfg0.N) (h0 : ¬t.val % 8 = 0) (h7 : ¬t.val % 8 = 7) :
    ¬k0_cond1 (grid0.coords t) = 1#1 ∧ k0_cond2 (grid0.coords t) = 1#1 ∧ ¬k0_cond3 (grid0.coords t) = 1#1 :=
  ⟨fun h => h0 ((guard_first t).mp h), (guard_later t).mpr h0, fun h => h7 ((guard_last t).mp h)⟩

theorem gLast (t : Fin cfg0.N) (h7 : t.val % 8 = 7) :
    ¬k0_cond1 (grid0.coords t) = 1#1 ∧ k0_cond2 (grid0.coords t) = 1#1 ∧ k0_cond3 (grid0.coords t) = 1#1 :=
  ⟨fun h => by have := (guard_first t).mp h; omega, (guard_later t).mpr (by omega), (guard_last t).mpr h7⟩

/-! ## What each case leaves in the outputs' buffers -/

/-- Every store of the body overwrites its output block whole, so in each case the stored pieces cover the block. -/
theorem coverFirst2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (hc3 : ¬k0_cond3 i = 1#1)
    (x0 : Vec F S1x3x4096 .f32) (x1 : Vec F S1x512x3 .f32) (y : S1x1x512.Idx) :
    ∃ pc ∈ (runFirst c i arg2 harg2 arg3 harg3 arg4 harg4 arg5 harg5 hc1 hc2 hc3 x0 x1).1, y ∈ pc.1.set :=
  View.cover_of_tiledL (runFirst c i arg2 harg2 arg3 harg3 arg4 harg4 arg5 harg5 hc1 hc2 hc3 x0 x1).1 S1x1x512.size (by sl_kernel_rfl) y
theorem coverFirst3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (hc3 : ¬k0_cond3 i = 1#1)
    (x0 : Vec F S1x3x4096 .f32) (x1 : Vec F S1x512x3 .f32) (y : S1x1x4096.Idx) :
    ∃ pc ∈ (runFirst c i arg2 harg2 arg3 harg3 arg4 harg4 arg5 harg5 hc1 hc2 hc3 x0 x1).2.1, y ∈ pc.1.set :=
  View.cover_of_tiledL (runFirst c i arg2 harg2 arg3 harg3 arg4 harg4 arg5 harg5 hc1 hc2 hc3 x0 x1).2.1 S1x1x4096.size (by sl_kernel_rfl) y
theorem coverLater2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : ¬k0_cond3 i = 1#1)
    (x0 : Vec F S1x3x4096 .f32) (x1 : Vec F S1x512x3 .f32) (xo : Vec F S1x1x4096 .f32) (y : S1x1x512.Idx) :
    ∃ pc ∈ (runLater c i arg2 harg2 arg3 harg3 arg4 harg4 arg5 harg5 hc1 hc2 hc3 x0 x1 xo).1, y ∈ pc.1.set :=
  View.cover_of_tiledL (runLater c i arg2 harg2 arg3 harg3 arg4 harg4 arg5 harg5 hc1 hc2 hc3 x0 x1 xo).1 S1x1x512.size (by sl_kernel_rfl) y
theorem coverLater3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : ¬k0_cond3 i = 1#1)
    (x0 : Vec F S1x3x4096 .f32) (x1 : Vec F S1x512x3 .f32) (xo : Vec F S1x1x4096 .f32) (y : S1x1x4096.Idx) :
    ∃ pc ∈ (runLater c i arg2 harg2 arg3 harg3 arg4 harg4 arg5 harg5 hc1 hc2 hc3 x0 x1 xo).2.1, y ∈ pc.1.set :=
  View.cover_of_tiledL (runLater c i arg2 harg2 arg3 harg3 arg4 harg4 arg5 harg5 hc1 hc2 hc3 x0 x1 xo).2.1 S1x1x4096.size (by sl_kernel_rfl) y
theorem coverLast2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : k0_cond3 i = 1#1)
    (x0 : Vec F S1x3x4096 .f32) (x1 : Vec F S1x512x3 .f32) (xo : Vec F S1x1x4096 .f32) (y : S1x1x512.Idx) :
    ∃ pc ∈ (runLast c i arg2 harg2 arg3 harg3 arg4 harg4 arg5 harg5 hc1 hc2 hc3 x0 x1 xo).1, y ∈ pc.1.set :=
  View.cover_of_tiledL (runLast c i arg2 harg2 arg3 harg3 arg4 harg4 arg5 harg5 hc1 hc2 hc3 x0 x1 xo).1 S1x1x512.size (by sl_kernel_rfl) y
theorem coverLast3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : k0_cond3 i = 1#1)
    (x0 : Vec F S1x3x4096 .f32) (x1 : Vec F S1x512x3 .f32) (xo : Vec F S1x1x4096 .f32) (y : S1x1x4096.Idx) :
    ∃ pc ∈ (runLast c i arg2 harg2 arg3 harg3 arg4 harg4 arg5 harg5 hc1 hc2 hc3 x0 x1 xo).2.1, y ∈ pc.1.set :=
  View.cover_of_tiledL (runLast c i arg2 harg2 arg3 harg3 arg4 harg4 arg5 harg5 hc1 hc2 hc3 x0 x1 xo).2.1 S1x1x4096.size (by sl_kernel_rfl) y

/-- What a case leaves in an output's staging buffer: its stored pieces read back (they cover the block, so what lay
    beneath them does not matter). -/
def outFirst2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (hc3 : ¬k0_cond3 i = 1#1)
    (x0 : Vec F S1x3x4096 .f32) (x1 : Vec F S1x512x3 .f32) : Vec F S1x1x512 .f32 :=
  VO2.read (Elt F) (VO2.writes (Elt F) VO2.junk (runFirst c i arg2 harg2 arg3 harg3 arg4 harg4 arg5 harg5 hc1 hc2 hc3 x0 x1).1)
def outFirst3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (hc3 : ¬k0_cond3 i = 1#1)
    (x0 : Vec F S1x3x4096 .f32) (x1 : Vec F S1x512x3 .f32) : Vec F S1x1x4096 .f32 :=
  VO3.read (Elt F) (VO3.writes (Elt F) VO3.junk (runFirst c i arg2 harg2 arg3 harg3 arg4 harg4 arg5 harg5 hc1 hc2 hc3 x0 x1).2.1)
def outLater2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : ¬k0_cond3 i = 1#1)
    (x0 : Vec F S1x3x4096 .f32) (x1 : Vec F S1x512x3 .f32) (xo : Vec F S1x1x4096 .f32) : Vec F S1x1x512 .f32 :=
  VO2.read (Elt F) (VO2.writes (Elt F) VO2.junk (runLater c i arg2 harg2 arg3 harg3 arg4 harg4 arg5 harg5 hc1 hc2 hc3 x0 x1 xo).1)
def outLater3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : ¬k0_cond3 i = 1#1)
    (x0 : Vec F S1x3x4096 .f32) (x1 : Vec F S1x512x3 .f32) (xo : Vec F S1x1x4096 .f32) : Vec F S1x1x4096 .f32 :=
  VO3.read (Elt F) (VO3.writes (Elt F) VO3.junk (runLater c i arg2 harg2 arg3 harg3 arg4 harg4 arg5 harg5 hc1 hc2 hc3 x0 x1 xo).2.1)
def outLast2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : k0_cond3 i = 1#1)
    (x0 : Vec F S1x3x4096 .f32) (x1 : Vec F S1x512x3 .f32) (xo : Vec F S1x1x4096 .f32) : Vec F S1x1x512 .f32 :=
  VO2.read (Elt F) (VO2.writes (Elt F) VO2.junk (runLast c i arg2 harg2 arg3 harg3 arg4 harg4 arg5 harg5 hc1 hc2 hc3 x0 x1 xo).1)
def outLast3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : k0_cond3 i = 1#1)
    (x0 : Vec F S1x3x4096 .f32) (x1 : Vec F S1x512x3 .f32) (xo : Vec F S1x1x4096 .f32) : Vec F S1x1x4096 .f32 :=
  VO3.read (Elt F) (VO3.writes (Elt F) VO3.junk (runLast c i arg2 harg2 arg3 harg3 arg4 harg4 arg5 harg5 hc1 hc2 hc3 x0 x1 xo).2.1)

/-! ## The outputs' buffers point by point -/

/-- The two outputs' buffers after the body at a first tile: the case run at the point's memrefs and input blocks. -/
def atFirst (c : Dev nD) (t : Fin cfg0.N) (h0 : t.val % 8 = 0) : Vec F S1x1x512 .f32 × Vec F S1x1x4096 .f32 :=
  (outFirst2 c (grid0.coords t) (ms0 t) (hs0 t) (ms1 t) (hs1 t) (ms2 t) (hs2 t) (ms3 t) (hs3 t) (gFirst t h0).1 (gFirst t h0).2.1 (gFirst t h0).2.2 (iblk m c 0 t) (iblk m c 1 t),
   outFirst3 c (grid0.coords t) (ms0 t) (hs0 t) (ms1 t) (hs1 t) (ms2 t) (hs2 t) (ms3 t) (hs3 t) (gFirst t h0).1 (gFirst t h0).2.1 (gFirst t h0).2.2 (iblk m c 0 t) (iblk m c 1 t))
/-- At a middle tile, over the running minimum `xo` the tile before left. -/
def atLater (c : Dev nD) (t : Fin cfg0.N) (h0 : ¬t.val % 8 = 0) (h7 : ¬t.val % 8 = 7) (xo : Vec F S1x1x4096 .f32) : Vec F S1x1x512 .f32 × Vec F S1x1x4096 .f32 :=
  (outLater2 c (grid0.coords t) (ms0 t) (hs0 t) (ms1 t) (hs1 t) (ms2 t) (hs2 t) (ms3 t) (hs3 t) (gLater t h0 h7).1 (gLater t h0 h7).2.1 (gLater t h0 h7).2.2 (iblk m c 0 t) (iblk m c 1 t) xo,
   outLater3 c (grid0.coords t) (ms0 t) (hs0 t) (ms1 t) (hs1 t) (ms2 t) (hs2 t) (ms3 t) (hs3 t) (gLater t h0 h7).1 (gLater t h0 h7).2.1 (gLater t h0 h7).2.2 (iblk m c 0 t) (iblk m c 1 t) xo)
/-- At a last tile, over the running minimum `xo` the tile before left. -/
def atLast (c : Dev nD) (t : Fin cfg0.N) (h7 : t.val % 8 = 7) (xo : Vec F S1x1x4096 .f32) : Vec F S1x1x512 .f32 × Vec F S1x1x4096 .f32 :=
  (outLast2 c (grid0.coords t) (ms0 t) (hs0 t) (ms1 t) (hs1 t) (ms2 t) (hs2 t) (ms3 t) (hs3 t) (gLast t h7).1 (gLast t h7).2.1 (gLast t h7).2.2 (iblk m c 0 t) (iblk m c 1 t) xo,
   outLast3 c (grid0.coords t) (ms0 t) (hs0 t) (ms1 t) (hs1 t) (ms2 t) (hs2 t) (ms3 t) (hs3 t) (gLast t h7).1 (gLast t h7).2.1 (gLast t h7).2.2 (iblk m c 0 t) (iblk m c 1 t) xo)

/-- What the two outputs' staging buffers hold after the body at position `n`, by recursion on the position: the case the
    position's residue modulo 8 selects, a later tile over what the position before left in the second output's buffer
    (that buffer is not written back between the tiles of one batch). -/
def outsAt (c : Dev nD) : (n : ℕ) → n < cfg0.N → Vec F S1x1x512 .f32 × Vec F S1x1x4096 .f32
  | 0, hn => atFirst m c ⟨0, hn⟩ (Nat.zero_mod _)
  | n + 1, hn =>
    if h0 : (n + 1) % 8 = 0 then atFirst m c ⟨n + 1, hn⟩ h0
    else if h7 : (n + 1) % 8 = 7 then atLast m c ⟨n + 1, hn⟩ h7 (outsAt c n (Nat.lt_of_succ_lt hn)).2
    else atLater m c ⟨n + 1, hn⟩ h0 h7 (outsAt c n (Nat.lt_of_succ_lt hn)).2

theorem outsAt_first (c : Dev nD) (t : Fin cfg0.N) (h0 : t.val % 8 = 0) :
    outsAt m c t.val t.isLt = atFirst m c t h0 := by
  obtain ⟨n, hn⟩ := t
  cases n with
  | zero => exact rfl
  | succ n => exact (dif_pos h0).trans rfl

theorem outsAt_later (c : Dev nD) (t : Fin cfg0.N) (h0 : ¬t.val % 8 = 0) (h7 : ¬t.val % 8 = 7) :
    outsAt m c t.val t.isLt = atLater m c t h0 h7 (outsAt m c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h7).trans rfl)

theorem outsAt_last (c : Dev nD) (t : Fin cfg0.N) (h7 : t.val % 8 = 7) :
    outsAt m c t.val t.isLt = atLast m c t h7 (outsAt m c (t.val - 1) (Nat.lt_of_le_of_lt (Nat.sub_le _ _) t.isLt)).2 := by
  obtain ⟨n, hn⟩ := t
  cases n with
  | zero => exact absurd h7 (by show ¬((0 : ℕ) % 8 = 7); omega)
  | succ n => exact (dif_neg (fun h => by dsimp only at h7; omega)).trans ((dif_pos h7).trans rfl)

/-! ## The pipeline's proof data -/

/-- The proof data on core `c`: the arrays as the region finds them; after the body at a point each input's buffer at its
    block and the outputs' at `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- At a later tile of a batch the second output's current buffer holds what the body left at the tile before: the point
    is not the first, the buffer was not written back in between (it is written back after a batch's last tile only), and
    the window is stored into at every point. -/
theorem before3_kept (c : Dev nD) (t : Fin cfg0.N) (h0 : ¬t.val % 8 = 0) (d) :
    (dats m 0 c).before 3 t d = (outsAt m c (t.val - 1) (Nat.lt_of_le_of_lt (Nat.sub_le _ _) t.isLt)).2 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    live3 (fun _ _ => rfl)]
  dsimp only [dats]

end Cert.Kernel.Hand

end
-- ==== Proof.BitsFrame.Sound.lean ====
/-
  The body at every grid point: at a point the two inputs' buffers hold their blocks, the
  residue of the point's number modulo 8 says which of the three cases the body is in, at a later tile of a batch the second
  output's buffer holds what the tile before left, so the case's run applies; what it leaves is what the proof data says.
-/
import proofs.«104261_j43748536877744_2_alg».proof.Proof.BitsFrame.Points

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 32 := lt_of_lt_of_eq t.isLt (show cfg0.N = 32 from N_0)
  by_cases h0 : t.val % 8 = 0
  · rw [outsAt_first m c t h0]
    unfold atFirst
    dsimp only
    unfold outFirst2 outFirst3
    iintro ⟨HΦ, Ho, ⟨%d0, H0⟩, ⟨%d1, H1⟩, ⟨%d2, H2⟩, ⟨%d3, H3⟩⟩
    iapply ((runFirst c (grid0.coords t) _ _ _ _ _ _ _ _ (gFirst t h0).1 (gFirst t h0).2.1 (gFirst t h0).2.2 (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst2 c _ _ _ _ _ _ _ _ _ _ _ _ _ _)
    unfold owns; iexists _; isplitr
    swap; · iexact H3
    ipureintro; exact View.read_writes_of_cover _ _ _ _ _ (coverFirst3 c _ _ _ _ _ _ _ _ _ _ _ _ _ _)
  · simp only [before3_kept m c t h0]
    by_cases h7 : t.val % 8 = 7
    · rw [outsAt_last m c t h7]
      unfold atLast
      dsimp only
      unfold outLast2 outLast3
      iintro ⟨HΦ, Ho, ⟨%d0, H0⟩, ⟨%d1, H1⟩, ⟨%d2, H2⟩, ⟨%d3, H3⟩⟩
      iapply ((runLast c (grid0.coords t) _ _ _ _ _ _ _ _ (gLast t h7).1 (gLast t h7).2.1 (gLast t h7).2.2 (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverLast2 c _ _ _ _ _ _ _ _ _ _ _ _ _ _ _)
      unfold owns; iexists _; isplitr
      swap; · iexact H3
      ipureintro; exact View.read_writes_of_cover _ _ _ _ _ (coverLast3 c _ _ _ _ _ _ _ _ _ _ _ _ _ _ _)
    · rw [outsAt_later m c t h0 h7]
      unfold atLater
      dsimp only
      unfold outLater2 outLater3
      iintro ⟨HΦ, Ho, ⟨%d0, H0⟩, ⟨%d1, H1⟩, ⟨%d2, H2⟩, ⟨%d3, H3⟩⟩
      iapply ((runLater c (grid0.coords t) _ _ _ _ _ _ _ _ (gLater t h0 h7).1 (gLater t h0 h7).2.1 (gLater t h0 h7).2.2 (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverLater2 c _ _ _ _ _ _ _ _ _ _ _ _ _ _ _)
      unfold owns; iexists _; isplitr
      swap; · iexact H3
      ipureintro; exact View.read_writes_of_cover _ _ _ _ _ (coverLater3 c _ _ _ _ _ _ _ _ _ _ _ _ _ _ _)

end Cert.Kernel.Hand

end
-- ==== Proof.BitsFrame.Run.lean ====
/-
  The body obligation at every grid point, the run of @main and the frame.
-/
import proofs.«104261_j43748536877744_2_alg».proof.Proof.BitsFrame.Sound

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point: the windows opened one by one; the second output is stored into at
    every point, so its buffer is handed back at what the body left. -/
theorem body_obligation (c : Dev nD) : BodyObligation (dats (F := F) m 0 c) (defs₀ (F := F)) Variants.none () Set.univ := fun t => by
  rw [bigSep_W0, bigSep_W0]
  have hl : idle0 3 (grid0.coords t) = false := live3 _
  simp only [hl]
  exact sound_body m c t

/-! ## The run and the frame -/

set_option backward.isDefEq.respectTransparency.types false in
/-- Every weakly fair execution of @main terminates, and every final state has each array of the pipeline at what the
    library computes from the proof data and every other buffer at what the host lines after the region make of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, nothing faults, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.IdealFrame.Cases.lean ====
/-
  The body's three guards over the grid. The grid is 4 batches by 8 target tiles, visited in row-major order, so a point's
  number modulo 8 is its tile index within the batch. The first guard (tile index = 0) starts a batch's running minimum, the
  second (tile index ≠ 0) folds the tile's column minima into it, the third (tile index = 7) takes the square root once the
  batch's last tile has been folded in. Every point satisfies the first guard or the second, so the running-minimum window
  is stored into at every point.
-/
import proofs.«104261_j43748536877744_2_alg».proof.Proof.Gen.KernelIdeal.Frame
import proofs.«104261_j43748536877744_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The first guard holds exactly at the first tile of each batch. -/
theorem guard_first : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second guard holds exactly at the later tiles of each batch. -/
theorem guard_later : ∀ t : Fin cfg0.N, k0_cond2 (grid0.coords t) = 1#1 ↔ ¬t.val % 8 = 0 :=
  (by decide +kernel : ∀ t : Fin grid0.N, k0_cond2 (grid0.coords t) = 1#1 ↔ ¬t.val % 8 = 0)

/-- The third guard holds exactly at the last tile of each batch. -/
theorem guard_last : ∀ t : Fin cfg0.N, k0_cond3 (grid0.coords t) = 1#1 ↔ t.val % 8 = 7 :=
  (by decide +kernel : ∀ t : Fin grid0.N, k0_cond3 (grid0.coords t) = 1#1 ↔ t.val % 8 = 7)

/-- The guards read the tile index only, and one of the first two holds whatever it is: no grid coordinates leave the
    running-minimum window without a store. -/
theorem live3 (i : grid0.Coords) : cfg0.idle 3 i = false := by
  show (!(k0_cond1 i == 1#1) && !(k0_cond2 i == 1#1) && !(k0_cond3 i == 1#1)) = false
  unfold k0_cond1 k0_cond2 k0_cond3
  generalize i 1 = a
  revert a
  decide +kernel

/-- One staging buffer of each output window, through which the window's contents are stated. -/
abbrev VO2 : View sig .tc .vmem S1x1x512 .f32 := (Memref.whole cc0_stg2_0 : Memref sig .tc .vmem S1x1x512 .f32).view
abbrev VO3 : View sig .tc .vmem S1x1x4096 .f32 := (Memref.whole cc0_stg3_0 : Memref sig .tc .vmem S1x1x4096 .f32).view

/-- Each window's current staging memref at point `t`, as the pipeline passes it to the body, and its wholeness. -/
abbrev ms0 (t : Fin cfg0.N) : Memref sig .tc .vmem S1x3x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

end Cert.KernelIdeal.Hand

end
-- ==== Proof.IdealFrame.RunFirst.lean ====
/-
  The body run at the first tile of a batch: the tile's row minima (square-rooted) go to the first output, the tile's column minima START the running minimum in the second, whatever it held.
  The run is stated on any whole staging memrefs: the two inputs at their contents, the first output at anything, the second output at anything; it ends with the inputs as they were and each output's
  buffer overwritten by the pieces the body stored, which the symbolic run finds.
-/
import proofs.«104261_j43748536877744_2_alg».proof.Proof.IdealFrame.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in each output's staging memref, as pieces (last first), with the proof that the body runs
    to a continuation holding the inputs unchanged and the outputs so overwritten. -/
noncomputable def runFirst (c : Dev nD) (i : grid0.Coords)
    (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (hc3 : ¬k0_cond3 i = 1#1)
    (x0 : Vec F S1x3x4096 .f32) (x1 : Vec F S1x512x3 .f32) :
    Σ' (L2 : List (View.Piece (Elt F) S1x1x512 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hand

end
-- ==== Proof.IdealFrame.RunLater.lean ====
/-
  The body run at a middle tile of a batch: the tile's row minima (square-rooted) go to the first output, the tile's column minima are folded by an elementwise minimum into the running minimum the second output holds.
  The run is stated on any whole staging memrefs: the two inputs at their contents, the first output at anything, the second output at the running minimum `xo`; it ends with the inputs as they were and each output's
  buffer overwritten by the pieces the body stored, which the symbolic run finds.
-/
import proofs.«104261_j43748536877744_2_alg».proof.Proof.IdealFrame.RunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in each output's staging memref, as pieces (last first), with the proof that the body runs
    to a continuation holding the inputs unchanged and the outputs so overwritten. -/
noncomputable def runLater (c : Dev nD) (i : grid0.Coords)
    (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : ¬k0_cond3 i = 1#1)
    (x0 : Vec F S1x3x4096 .f32) (x1 : Vec F S1x512x3 .f32) (xo : Vec F S1x1x4096 .f32) :
    Σ' (L2 : List (View.Piece (Elt F) S1x1x512 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hand

end
-- ==== Proof.IdealFrame.RunLast.lean ====
/-
  The body run at the last tile of a batch: as at a middle tile, and then the completed running minimum is replaced by its elementwise square root.
  The run is stated on any whole staging memrefs: the two inputs at their contents, the first output at anything, the second output at the running minimum `xo`; it ends with the inputs as they were and each output's
  buffer overwritten by the pieces the body stored, which the symbolic run finds.
-/
import proofs.«104261_j43748536877744_2_alg».proof.Proof.IdealFrame.RunLater

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in each output's staging memref, as pieces (last first), with the proof that the body runs
    to a continuation holding the inputs unchanged and the outputs so overwritten. -/
noncomputable def runLast (c : Dev nD) (i : grid0.Coords)
    (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : k0_cond3 i = 1#1)
    (x0 : Vec F S1x3x4096 .f32) (x1 : Vec F S1x512x3 .f32) (xo : Vec F S1x1x4096 .f32) :
    Σ' (L2 : List (View.Piece (Elt F) S1x1x512 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hand

end
-- ==== Proof.IdealFrame.Points.lean ====
/-
  The frame of the program: what the two output windows' staging buffers hold after the body at every grid point, the
  pipeline's proof data built from it, the body obligation at every point, and the run of @main.

  The first output's block (the square roots of the tile's row minima) is rewritten whole at every point and written back
  at every point. The second output's block is indexed by the batch alone: it is written back only after a batch's last
  tile, and between a batch's tiles its buffer carries the running elementwise minimum of the tiles' column minima — started
  at the batch's first tile, folded into at each later tile, and square-rooted at the last.
-/
import proofs.«104261_j43748536877744_2_alg».proof.Proof.IdealFrame.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The guards at a point, by its number modulo 8 -/

theorem gFirst (t : Fin cfg0.N) (h0 : t.val % 8 = 0) :
    k0_cond1 (grid0.coords t) = 1#1 ∧ ¬k0_cond2 (grid0.coords t) = 1#1 ∧ ¬k0_cond3 (grid0.coords t) = 1#1 :=
  ⟨(guard_first t).mpr h0, fun h => (guard_later t).mp h h0, fun h => by have := (guard_last t).mp h; omega⟩

theorem gLater (t : Fin cfg0.N) (h0 : ¬t.val % 8 = 0) (h7 : ¬t.val % 8 = 7) :
    ¬k0_cond1 (grid0.coords t) = 1#1 ∧ k0_cond2 (grid0.coords t) = 1#1 ∧ ¬k0_cond3 (grid0.coords t) = 1#1 :=
  ⟨fun h => h0 ((guard_first t).mp h), (guard_later t).mpr h0, fun h => h7 ((guard_last t).mp h)⟩

theorem gLast (t : Fin cfg0.N) (h7 : t.val % 8 = 7) :
    ¬k0_cond1 (grid0.coords t) = 1#1 ∧ k0_cond2 (grid0.coords t) = 1#1 ∧ k0_cond3 (grid0.coords t) = 1#1 :=
  ⟨fun h => by have := (guard_first t).mp h; omega, (guard_later t).mpr (by omega), (guard_last t).mpr h7⟩

/-! ## What each case leaves in the outputs' buffers -/

/-- Every store of the body overwrites its output block whole, so in each case the stored pieces cover the block. -/
theorem coverFirst2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (hc3 : ¬k0_cond3 i = 1#1)
    (x0 : Vec F S1x3x4096 .f32) (x1 : Vec F S1x512x3 .f32) (y : S1x1x512.Idx) :
    ∃ pc ∈ (runFirst c i arg2 harg2 arg3 harg3 arg4 harg4 arg5 harg5 hc1 hc2 hc3 x0 x1).1, y ∈ pc.1.set :=
  View.cover_of_tiledL (runFirst c i arg2 harg2 arg3 harg3 arg4 harg4 arg5 harg5 hc1 hc2 hc3 x0 x1).1 S1x1x512.size (by sl_kernel_rfl) y
theorem coverFirst3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (hc3 : ¬k0_cond3 i = 1#1)
    (x0 : Vec F S1x3x4096 .f32) (x1 : Vec F S1x512x3 .f32) (y : S1x1x4096.Idx) :
    ∃ pc ∈ (runFirst c i arg2 harg2 arg3 harg3 arg4 harg4 arg5 harg5 hc1 hc2 hc3 x0 x1).2.1, y ∈ pc.1.set :=
  View.cover_of_tiledL (runFirst c i arg2 harg2 arg3 harg3 arg4 harg4 arg5 harg5 hc1 hc2 hc3 x0 x1).2.1 S1x1x4096.size (by sl_kernel_rfl) y
theorem coverLater2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : ¬k0_cond3 i = 1#1)
    (x0 : Vec F S1x3x4096 .f32) (x1 : Vec F S1x512x3 .f32) (xo : Vec F S1x1x4096 .f32) (y : S1x1x512.Idx) :
    ∃ pc ∈ (runLater c i arg2 harg2 arg3 harg3 arg4 harg4 arg5 harg5 hc1 hc2 hc3 x0 x1 xo).1, y ∈ pc.1.set :=
  View.cover_of_tiledL (runLater c i arg2 harg2 arg3 harg3 arg4 harg4 arg5 harg5 hc1 hc2 hc3 x0 x1 xo).1 S1x1x512.size (by sl_kernel_rfl) y
theorem coverLater3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : ¬k0_cond3 i = 1#1)
    (x0 : Vec F S1x3x4096 .f32) (x1 : Vec F S1x512x3 .f32) (xo : Vec F S1x1x4096 .f32) (y : S1x1x4096.Idx) :
    ∃ pc ∈ (runLater c i arg2 harg2 arg3 harg3 arg4 harg4 arg5 harg5 hc1 hc2 hc3 x0 x1 xo).2.1, y ∈ pc.1.set :=
  View.cover_of_tiledL (runLater c i arg2 harg2 arg3 harg3 arg4 harg4 arg5 harg5 hc1 hc2 hc3 x0 x1 xo).2.1 S1x1x4096.size (by sl_kernel_rfl) y
theorem coverLast2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : k0_cond3 i = 1#1)
    (x0 : Vec F S1x3x4096 .f32) (x1 : Vec F S1x512x3 .f32) (xo : Vec F S1x1x4096 .f32) (y : S1x1x512.Idx) :
    ∃ pc ∈ (runLast c i arg2 harg2 arg3 harg3 arg4 harg4 arg5 harg5 hc1 hc2 hc3 x0 x1 xo).1, y ∈ pc.1.set :=
  View.cover_of_tiledL (runLast c i arg2 harg2 arg3 harg3 arg4 harg4 arg5 harg5 hc1 hc2 hc3 x0 x1 xo).1 S1x1x512.size (by sl_kernel_rfl) y
theorem coverLast3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : k0_cond3 i = 1#1)
    (x0 : Vec F S1x3x4096 .f32) (x1 : Vec F S1x512x3 .f32) (xo : Vec F S1x1x4096 .f32) (y : S1x1x4096.Idx) :
    ∃ pc ∈ (runLast c i arg2 harg2 arg3 harg3 arg4 harg4 arg5 harg5 hc1 hc2 hc3 x0 x1 xo).2.1, y ∈ pc.1.set :=
  View.cover_of_tiledL (runLast c i arg2 harg2 arg3 harg3 arg4 harg4 arg5 harg5 hc1 hc2 hc3 x0 x1 xo).2.1 S1x1x4096.size (by sl_kernel_rfl) y

/-- What a case leaves in an output's staging buffer: its stored pieces read back (they cover the block, so what lay
    beneath them does not matter). -/
def outFirst2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (hc3 : ¬k0_cond3 i = 1#1)
    (x0 : Vec F S1x3x4096 .f32) (x1 : Vec F S1x512x3 .f32) : Vec F S1x1x512 .f32 :=
  VO2.read (Elt F) (VO2.writes (Elt F) VO2.junk (runFirst c i arg2 harg2 arg3 harg3 arg4 harg4 arg5 harg5 hc1 hc2 hc3 x0 x1).1)
def outFirst3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (hc3 : ¬k0_cond3 i = 1#1)
    (x0 : Vec F S1x3x4096 .f32) (x1 : Vec F S1x512x3 .f32) : Vec F S1x1x4096 .f32 :=
  VO3.read (Elt F) (VO3.writes (Elt F) VO3.junk (runFirst c i arg2 harg2 arg3 harg3 arg4 harg4 arg5 harg5 hc1 hc2 hc3 x0 x1).2.1)
def outLater2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : ¬k0_cond3 i = 1#1)
    (x0 : Vec F S1x3x4096 .f32) (x1 : Vec F S1x512x3 .f32) (xo : Vec F S1x1x4096 .f32) : Vec F S1x1x512 .f32 :=
  VO2.read (Elt F) (VO2.writes (Elt F) VO2.junk (runLater c i arg2 harg2 arg3 harg3 arg4 harg4 arg5 harg5 hc1 hc2 hc3 x0 x1 xo).1)
def outLater3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : ¬k0_cond3 i = 1#1)
    (x0 : Vec F S1x3x4096 .f32) (x1 : Vec F S1x512x3 .f32) (xo : Vec F S1x1x4096 .f32) : Vec F S1x1x4096 .f32 :=
  VO3.read (Elt F) (VO3.writes (Elt F) VO3.junk (runLater c i arg2 harg2 arg3 harg3 arg4 harg4 arg5 harg5 hc1 hc2 hc3 x0 x1 xo).2.1)
def outLast2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : k0_cond3 i = 1#1)
    (x0 : Vec F S1x3x4096 .f32) (x1 : Vec F S1x512x3 .f32) (xo : Vec F S1x1x4096 .f32) : Vec F S1x1x512 .f32 :=
  VO2.read (Elt F) (VO2.writes (Elt F) VO2.junk (runLast c i arg2 harg2 arg3 harg3 arg4 harg4 arg5 harg5 hc1 hc2 hc3 x0 x1 xo).1)
def outLast3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : k0_cond3 i = 1#1)
    (x0 : Vec F S1x3x4096 .f32) (x1 : Vec F S1x512x3 .f32) (xo : Vec F S1x1x4096 .f32) : Vec F S1x1x4096 .f32 :=
  VO3.read (Elt F) (VO3.writes (Elt F) VO3.junk (runLast c i arg2 harg2 arg3 harg3 arg4 harg4 arg5 harg5 hc1 hc2 hc3 x0 x1 xo).2.1)

/-! ## The outputs' buffers point by point -/

/-- The two outputs' buffers after the body at a first tile: the case run at the point's memrefs and input blocks. -/
def atFirst (c : Dev nD) (t : Fin cfg0.N) (h0 : t.val % 8 = 0) : Vec F S1x1x512 .f32 × Vec F S1x1x4096 .f32 :=
  (outFirst2 c (grid0.coords t) (ms0 t) (hs0 t) (ms1 t) (hs1 t) (ms2 t) (hs2 t) (ms3 t) (hs3 t) (gFirst t h0).1 (gFirst t h0).2.1 (gFirst t h0).2.2 (iblk m c 0 t) (iblk m c 1 t),
   outFirst3 c (grid0.coords t) (ms0 t) (hs0 t) (ms1 t) (hs1 t) (ms2 t) (hs2 t) (ms3 t) (hs3 t) (gFirst t h0).1 (gFirst t h0).2.1 (gFirst t h0).2.2 (iblk m c 0 t) (iblk m c 1 t))
/-- At a middle tile, over the running minimum `xo` the tile before left. -/
def atLater (c : Dev nD) (t : Fin cfg0.N) (h0 : ¬t.val % 8 = 0) (h7 : ¬t.val % 8 = 7) (xo : Vec F S1x1x4096 .f32) : Vec F S1x1x512 .f32 × Vec F S1x1x4096 .f32 :=
  (outLater2 c (grid0.coords t) (ms0 t) (hs0 t) (ms1 t) (hs1 t) (ms2 t) (hs2 t) (ms3 t) (hs3 t) (gLater t h0 h7).1 (gLater t h0 h7).2.1 (gLater t h0 h7).2.2 (iblk m c 0 t) (iblk m c 1 t) xo,
   outLater3 c (grid0.coords t) (ms0 t) (hs0 t) (ms1 t) (hs1 t) (ms2 t) (hs2 t) (ms3 t) (hs3 t) (gLater t h0 h7).1 (gLater t h0 h7).2.1 (gLater t h0 h7).2.2 (iblk m c 0 t) (iblk m c 1 t) xo)
/-- At a last tile, over the running minimum `xo` the tile before left. -/
def atLast (c : Dev nD) (t : Fin cfg0.N) (h7 : t.val % 8 = 7) (xo : Vec F S1x1x4096 .f32) : Vec F S1x1x512 .f32 × Vec F S1x1x4096 .f32 :=
  (outLast2 c (grid0.coords t) (ms0 t) (hs0 t) (ms1 t) (hs1 t) (ms2 t) (hs2 t) (ms3 t) (hs3 t) (gLast t h7).1 (gLast t h7).2.1 (gLast t h7).2.2 (iblk m c 0 t) (iblk m c 1 t) xo,
   outLast3 c (grid0.coords t) (ms0 t) (hs0 t) (ms1 t) (hs1 t) (ms2 t) (hs2 t) (ms3 t) (hs3 t) (gLast t h7).1 (gLast t h7).2.1 (gLast t h7).2.2 (iblk m c 0 t) (iblk m c 1 t) xo)

/-- What the two outputs' staging buffers hold after the body at position `n`, by recursion on the position: the case the
    position's residue modulo 8 selects, a later tile over what the position before left in the second output's buffer
    (that buffer is not written back between the tiles of one batch). -/
def outsAt (c : Dev nD) : (n : ℕ) → n < cfg0.N → Vec F S1x1x512 .f32 × Vec F S1x1x4096 .f32
  | 0, hn => atFirst m c ⟨0, hn⟩ (Nat.zero_mod _)
  | n + 1, hn =>
    if h0 : (n + 1) % 8 = 0 then atFirst m c ⟨n + 1, hn⟩ h0
    else if h7 : (n + 1) % 8 = 7 then atLast m c ⟨n + 1, hn⟩ h7 (outsAt c n (Nat.lt_of_succ_lt hn)).2
    else atLater m c ⟨n + 1, hn⟩ h0 h7 (outsAt c n (Nat.lt_of_succ_lt hn)).2

theorem outsAt_first (c : Dev nD) (t : Fin cfg0.N) (h0 : t.val % 8 = 0) :
    outsAt m c t.val t.isLt = atFirst m c t h0 := by
  obtain ⟨n, hn⟩ := t
  cases n with
  | zero => exact rfl
  | succ n => exact (dif_pos h0).trans rfl

theorem outsAt_later (c : Dev nD) (t : Fin cfg0.N) (h0 : ¬t.val % 8 = 0) (h7 : ¬t.val % 8 = 7) :
    outsAt m c t.val t.isLt = atLater m c t h0 h7 (outsAt m c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h7).trans rfl)

theorem outsAt_last (c : Dev nD) (t : Fin cfg0.N) (h7 : t.val % 8 = 7) :
    outsAt m c t.val t.isLt = atLast m c t h7 (outsAt m c (t.val - 1) (Nat.lt_of_le_of_lt (Nat.sub_le _ _) t.isLt)).2 := by
  obtain ⟨n, hn⟩ := t
  cases n with
  | zero => exact absurd h7 (by show ¬((0 : ℕ) % 8 = 7); omega)
  | succ n => exact (dif_neg (fun h => by dsimp only at h7; omega)).trans ((dif_pos h7).trans rfl)

/-! ## The pipeline's proof data -/

/-- The proof data on core `c`: the arrays as the region finds them; after the body at a point each input's buffer at its
    block and the outputs' at `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- At a later tile of a batch the second output's current buffer holds what the body left at the tile before: the point
    is not the first, the buffer was not written back in between (it is written back after a batch's last tile only), and
    the window is stored into at every point. -/
theorem before3_kept (c : Dev nD) (t : Fin cfg0.N) (h0 : ¬t.val % 8 = 0) (d) :
    (dats m 0 c).before 3 t d = (outsAt m c (t.val - 1) (Nat.lt_of_le_of_lt (Nat.sub_le _ _) t.isLt)).2 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    live3 (fun _ _ => rfl)]
  dsimp only [dats]

end Cert.KernelIdeal.Hand

end
-- ==== Proof.IdealFrame.Sound.lean ====
/-
  The body at every grid point: at a point the two inputs' buffers hold their blocks, the
  residue of the point's number modulo 8 says which of the three cases the body is in, at a later tile of a batch the second
  output's buffer holds what the tile before left, so the case's run applies; what it leaves is what the proof data says.
-/
import proofs.«104261_j43748536877744_2_alg».proof.Proof.IdealFrame.Points

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 32 := lt_of_lt_of_eq t.isLt (show cfg0.N = 32 from N_0)
  by_cases h0 : t.val % 8 = 0
  · rw [outsAt_first m c t h0]
    unfold atFirst
    dsimp only
    unfold outFirst2 outFirst3
    iintro ⟨HΦ, Ho, ⟨%d0, H0⟩, ⟨%d1, H1⟩, ⟨%d2, H2⟩, ⟨%d3, H3⟩⟩
    iapply ((runFirst c (grid0.coords t) _ _ _ _ _ _ _ _ (gFirst t h0).1 (gFirst t h0).2.1 (gFirst t h0).2.2 (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst2 c _ _ _ _ _ _ _ _ _ _ _ _ _ _)
    unfold owns; iexists _; isplitr
    swap; · iexact H3
    ipureintro; exact View.read_writes_of_cover _ _ _ _ _ (coverFirst3 c _ _ _ _ _ _ _ _ _ _ _ _ _ _)
  · simp only [before3_kept m c t h0]
    by_cases h7 : t.val % 8 = 7
    · rw [outsAt_last m c t h7]
      unfold atLast
      dsimp only
      unfold outLast2 outLast3
      iintro ⟨HΦ, Ho, ⟨%d0, H0⟩, ⟨%d1, H1⟩, ⟨%d2, H2⟩, ⟨%d3, H3⟩⟩
      iapply ((runLast c (grid0.coords t) _ _ _ _ _ _ _ _ (gLast t h7).1 (gLast t h7).2.1 (gLast t h7).2.2 (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverLast2 c _ _ _ _ _ _ _ _ _ _ _ _ _ _ _)
      unfold owns; iexists _; isplitr
      swap; · iexact H3
      ipureintro; exact View.read_writes_of_cover _ _ _ _ _ (coverLast3 c _ _ _ _ _ _ _ _ _ _ _ _ _ _ _)
    · rw [outsAt_later m c t h0 h7]
      unfold atLater
      dsimp only
      unfold outLater2 outLater3
      iintro ⟨HΦ, Ho, ⟨%d0, H0⟩, ⟨%d1, H1⟩, ⟨%d2, H2⟩, ⟨%d3, H3⟩⟩
      iapply ((runLater c (grid0.coords t) _ _ _ _ _ _ _ _ (gLater t h0 h7).1 (gLater t h0 h7).2.1 (gLater t h0 h7).2.2 (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverLater2 c _ _ _ _ _ _ _ _ _ _ _ _ _ _ _)
      unfold owns; iexists _; isplitr
      swap; · iexact H3
      ipureintro; exact View.read_writes_of_cover _ _ _ _ _ (coverLater3 c _ _ _ _ _ _ _ _ _ _ _ _ _ _ _)

end Cert.KernelIdeal.Hand

end
-- ==== Proof.IdealFrame.Run.lean ====
/-
  The body obligation at every grid point, the run of @main and the frame.
-/
import proofs.«104261_j43748536877744_2_alg».proof.Proof.IdealFrame.Sound

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point: the windows opened one by one; the second output is stored into at
    every point, so its buffer is handed back at what the body left. -/
theorem body_obligation (c : Dev nD) : BodyObligation (dats (F := F) m 0 c) (defs₀ (F := F)) Variants.none () Set.univ := fun t => by
  rw [bigSep_W0, bigSep_W0]
  have hl : idle0 3 (grid0.coords t) = false := live3 _
  simp only [hl]
  exact sound_body m c t

/-! ## The run and the frame -/

set_option backward.isDefEq.respectTransparency.types false in
/-- Every weakly fair execution of @main terminates, and every final state has each array of the pipeline at what the
    library computes from the proof data and every other buffer at what the host lines after the region make of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, nothing faults, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.IdealValue.CaseValues.lean ====
/-
  What each case of the body leaves in the two outputs' buffers, as the body's arithmetic of what it loaded: every store
  overwrites its block whole, so the buffer ends at the last store's value; a load of a whole buffer reads its contents, and
  at a batch's last tile the second load of the second output reads back what the fold has just stored.
-/
import proofs.«104261_j43748536877744_2_alg».proof.Proof.IdealFrame.Points
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-- First tile: the first output ends at the square roots of the tile's row minima. -/
theorem valFirst2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (hc3 : ¬k0_cond3 i = 1#1)
    (x0 : Vec F S1x3x4096 .f32) (x1 : Vec F S1x512x3 .f32) :
    outFirst2 c i arg2 harg2 arg3 harg3 arg4 harg4 arg5 harg5 hc1 hc2 hc3 x0 x1 = k0_pay5 x0 x1 := by
  unfold outFirst2
  rw [View.read_writes_eq_canon _ _ _ (coverFirst2 c i arg2 harg2 arg3 harg3 arg4 harg4 arg5 harg5 hc1 hc2 hc3 x0 x1)]
  unfold runFirst
  dsimp only
  rw [View.canon_unit_zero hz3]
  simp only [View.readAt_eq_ld, harg2.read_unread, harg3.read_unread, View.ld_unit_zero (S := S1x3x4096) hz3, View.ld_unit_zero (S := S1x512x3) hz3]

/-- First tile: the second output ends at the tile's column minima. -/
theorem valFirst3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (hc3 : ¬k0_cond3 i = 1#1)
    (x0 : Vec F S1x3x4096 .f32) (x1 : Vec F S1x512x3 .f32) :
    outFirst3 c i arg2 harg2 arg3 harg3 arg4 harg4 arg5 harg5 hc1 hc2 hc3 x0 x1 = k0_pay6 x0 x1 := by
  unfold outFirst3
  rw [View.read_writes_eq_canon _ _ _ (coverFirst3 c i arg2 harg2 arg3 harg3 arg4 harg4 arg5 harg5 hc1 hc2 hc3 x0 x1)]
  unfold runFirst
  dsimp only
  rw [View.canon_unit_zero hz3]
  simp only [View.readAt_eq_ld, harg2.read_unread, harg3.read_unread, View.ld_unit_zero (S := S1x3x4096) hz3, View.ld_unit_zero (S := S1x512x3) hz3]

/-- Middle tile: the first output as at every tile. -/
theorem valLater2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : ¬k0_cond3 i = 1#1)
    (x0 : Vec F S1x3x4096 .f32) (x1 : Vec F S1x512x3 .f32) (xo : Vec F S1x1x4096 .f32) :
    outLater2 c i arg2 harg2 arg3 harg3 arg4 harg4 arg5 harg5 hc1 hc2 hc3 x0 x1 xo = k0_pay5 x0 x1 := by
  unfold outLater2
  rw [View.read_writes_eq_canon _ _ _ (coverLater2 c i arg2 harg2 arg3 harg3 arg4 harg4 arg5 harg5 hc1 hc2 hc3 x0 x1 xo)]
  unfold runLater
  dsimp only
  rw [View.canon_unit_zero hz3]
  simp only [View.readAt_eq_ld, harg2.read_unread, harg3.read_unread, View.ld_unit_zero (S := S1x3x4096) hz3, View.ld_unit_zero (S := S1x512x3) hz3]

/-- Middle tile: the second output ends at the elementwise minimum of the running minimum and the tile's column minima. -/
theorem valLater3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : ¬k0_cond3 i = 1#1)
    (x0 : Vec F S1x3x4096 .f32) (x1 : Vec F S1x512x3 .f32) (xo : Vec F S1x1x4096 .f32) :
    outLater3 c i arg2 harg2 arg3 harg3 arg4 harg4 arg5 harg5 hc1 hc2 hc3 x0 x1 xo = k0_pay1 (k0_pay4 x0 x1) xo := by
  unfold outLater3
  rw [View.read_writes_eq_canon _ _ _ (coverLater3 c i arg2 harg2 arg3 harg3 arg4 harg4 arg5 harg5 hc1 hc2 hc3 x0 x1 xo)]
  unfold runLater
  dsimp only
  sl_unfold_words
  rw [View.canon_unit_zero hz3]
  simp only [View.readAt_eq_ld, harg2.read_unread, harg3.read_unread, harg5.read_unread, View.ld_unit_zero (S := S1x3x4096) hz3, View.ld_unit_zero (S := S1x512x3) hz3, View.ld_unit_zero (S := S1x1x4096) hz3]

/-- Last tile: the first output as at every tile. -/
theorem valLast2 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : k0_cond3 i = 1#1)
    (x0 : Vec F S1x3x4096 .f32) (x1 : Vec F S1x512x3 .f32) (xo : Vec F S1x1x4096 .f32) :
    outLast2 c i arg2 harg2 arg3 harg3 arg4 harg4 arg5 harg5 hc1 hc2 hc3 x0 x1 xo = k0_pay5 x0 x1 := by
  unfold outLast2
  rw [View.read_writes_eq_canon _ _ _ (coverLast2 c i arg2 harg2 arg3 harg3 arg4 harg4 arg5 harg5 hc1 hc2 hc3 x0 x1 xo)]
  unfold runLast
  dsimp only
  rw [View.canon_unit_zero hz3]
  simp only [View.readAt_eq_ld, harg2.read_unread, harg3.read_unread, View.ld_unit_zero (S := S1x3x4096) hz3, View.ld_unit_zero (S := S1x512x3) hz3]

/-- Last tile: the second output ends at the square root of the completed minimum — the fold's store read back. -/
theorem valLast3 (c : Dev nD) (i : grid0.Coords) (arg2 : Memref sig .tc .vmem S1x3x4096 .f32) (harg2 : arg2.IsWhole) (arg3 : Memref sig .tc .vmem S1x512x3 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (hc3 : k0_cond3 i = 1#1)
    (x0 : Vec F S1x3x4096 .f32) (x1 : Vec F S1x512x3 .f32) (xo : Vec F S1x1x4096 .f32) :
    outLast3 c i arg2 harg2 arg3 harg3 arg4 harg4 arg5 harg5 hc1 hc2 hc3 x0 x1 xo = k0_pay2 (k0_pay1 (k0_pay4 x0 x1) xo) := by
  unfold outLast3
  rw [View.read_writes_eq_canon _ _ _ (coverLast3 c i arg2 harg2 arg3 harg3 arg4 harg4 arg5 harg5 hc1 hc2 hc3 x0 x1 xo)]
  unfold runLast
  dsimp only
  sl_unfold_words
  rw [View.canon_cons_unit_zero (S := S1x1x4096) hz3, View.readCov_unit_zero (S := S1x1x4096) _ hz3]
  simp only [View.readAt_eq_ld, harg2.read_unread, harg3.read_unread, harg5.read_unread, View.ld_unit_zero (S := S1x3x4096) hz3, View.ld_unit_zero (S := S1x512x3) hz3, View.ld_unit_zero (S := S1x1x4096) hz3]

end Cert.KernelIdeal.Hand

end
-- ==== Proof.LibMinFold.lean ====
/- General facts about minima over a finite family of extended reals taken from the top, and about the two
   minimum-reductions that compute them: a vector minimum-reduction and a host minimum-reduction along one axis, each
   started from the pattern of +infinity; with two layout steps for columns. Nothing here depends on a particular
   program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MinFold

/-- The f32 pattern of +infinity denotes the top of the extended reals. -/
theorem ofBits_inf : Ideal.ofBits .f32 0x7F800000#32 = ⊤ := by
  simp [Ideal.ofBits, Ideal.ieee]

/-- An extended real lies below the minimum of a finite family taken from the top iff it lies below every member:
    the minimum by its universal property, with no order of folding in it. -/
theorem le_fold_min_univ {ι : Type} [Fintype ι] (f : ι → EReal) (x : EReal) :
    x ≤ (Finset.univ : Finset ι).fold min ⊤ f ↔ ∀ k, x ≤ f k := by
  rw [Finset.le_fold_min]
  simp

/-- Two extended reals with the same lower bounds are equal (so two minima described by `le_fold_min_univ` over the
    same members, however blocked, are equal). -/
theorem eq_of_le_iff {u v : EReal} (h : ∀ x, x ≤ u ↔ x ≤ v) : u = v :=
  le_antisymm ((h u).mp le_rfl) ((h v).mpr le_rfl)

/-- A vector minimum-reduction along ONE axis from the pattern of +infinity, read on the extended reals at a reduced
    index `j`: the minimum, from the top, over that axis's coordinates of the source at `j` with the coordinate
    inserted. The hypotheses are typed as a printed body's proof arguments are. -/
theorem minRed_apply {s t : Shape} {a : Fin s.rank} (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j
      = (Finset.univ : Finset (Fin (s.size a))).fold min ⊤ (src ∘ h.lift j) := by
  rw [multiReduction_minimumf_eq_fold]
  refine (h.fold_filter_drop_single FloatOps.minimumf _ src j).trans ?_
  show Finset.fold min (Ideal.ofBits .f32 0x7F800000#32) _ _ = _
  rw [ofBits_inf]

/-- The host's one-operand reduction with a minimum body along ONE axis from the constant +infinity, read on the
    extended reals at a reduced index `j`: the same minimum. -/
theorem hostMinRed_apply {s t u : Shape} {a : Fin s.rank} (x : FVec Ideal s .f32) (h' : s.ReducesTo [a] t) (h : s.Reduces [a] t)
    (hu : 0 < u.numel) (j : t.Idx) :
    Host.reduce FloatOps.minimumf x (constant (F := Ideal) u .f32 0x7F800000#32) h' hu j
      = (Finset.univ : Finset (Fin (s.size a))).fold min ⊤ (x ∘ h.lift j) := by
  rw [Host.reduce_eq_fold_single FloatOps.minimumf x _ h' h hu]
  show Finset.fold min (Ideal.ofBits .f32 0x7F800000#32) _ _ = _
  rw [ofBits_inf]

/-- A column `[a, 1]` broadcast along the lanes to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.MinFold

end
-- ==== Proof.Spec.lean ====
/-
  The mathematics both programs compute, on the extended reals.

  For a batch `b`, a target row `i` and a prediction row `j` let D(b, i, j) be the squared distance of target i and
  prediction j: the three squared coordinate differences added, one after the other, to a starting constant. One result is,
  per target, the square root of the least D over the predictions; the other, per prediction, the square root of the least D
  over the targets. Two facts join the two programs:
    * the extended square root is monotone and fixes the top, so it commutes with a minimum taken from the top: the square
      root of the least squared distance is the least distance;
    * a minimum over all 4096 targets is the minimum over a growing prefix of them, extended 512 rows at a time.
  Neither fact needs the inputs finite.
-/
import Mathlib
import Idealize.ShloMosaic.PureOps.Ideal
import Idealize.ShloMosaic.Lib.ValueIdx
import proofs.«104261_j43748536877744_2_alg».proof.Proof.LibMinFold

noncomputable section

open Idealize.ShloMosaic Idealize.ShloMosaic.ValueIdx Cert.Lib.MinFold

namespace Cert.Chamfer

/-! ## The square root and minima -/

/-- The extended square root is monotone: below zero it is the bottom, on the non-negative reals the real square root, at
    the top the top. -/
theorem sqrt_mono : Monotone Ideal.sqrt := by
  intro x y hxy
  induction x using EReal.rec with
  | bot => exact bot_le
  | top =>
    have hy : y = ⊤ := top_le_iff.mp hxy
    subst hy; exact le_rfl
  | coe r =>
    induction y using EReal.rec with
    | bot => exact absurd hxy (by simp)
    | top => exact le_top
    | coe s =>
      have hrs : r ≤ s := EReal.coe_le_coe_iff.mp hxy
      rw [Ideal.sqrt_coe, Ideal.sqrt_coe]
      by_cases hr : r < 0
      · rw [if_pos hr]; exact bot_le
      · have hs : ¬s < 0 := by intro h; exact hr (lt_of_le_of_lt hrs h)
        rw [if_neg hr, if_neg hs]
        exact EReal.coe_le_coe_iff.mpr (Real.sqrt_le_sqrt hrs)

/-- So the square root of a minimum taken from the top is the minimum, from the top, of the square roots. -/
theorem sqrt_fold_min {ι : Type} [Fintype ι] (f : ι → EReal) :
    Ideal.sqrt ((Finset.univ : Finset ι).fold min ⊤ f) = (Finset.univ : Finset ι).fold min ⊤ (fun k => Ideal.sqrt (f k)) := by
  have h := Finset.fold_hom (op := min) (op' := min) (m := Ideal.sqrt) (b := (⊤ : EReal)) (f := f) (s := Finset.univ)
    (fun x y => sqrt_mono.map_min)
  rw [← h, Ideal.sqrt_top]

/-! ## The squared distance, in the two programs' associations -/

/-- Three squared differences added one after the other to `z`. -/
def dist2 (z : EReal) (u v : Fin 3 → EReal) : EReal :=
  ((z + (u 0 - v 0) * (u 0 - v 0)) + (u 1 - v 1) * (u 1 - v 1)) + (u 2 - v 2) * (u 2 - v 2)

/-- The same as `z` plus the sum of the three: addition of extended reals is associative. -/
theorem dist2_eq_sum (z : EReal) (u v : Fin 3 → EReal) :
    dist2 z u v = z + ∑ d : Fin 3, (u d - v d) * (u d - v d) := by
  unfold dist2
  rw [Fin.sum_univ_three]
  simp only [add_assoc]

/-! ## A minimum over a growing prefix -/

/-- The minimum, from the top, of `f` over the indices below `n`. -/
def partialMin (f : Fin 4096 → EReal) (n : ℕ) : EReal :=
  (Finset.univ : Finset (Fin 4096)).fold min ⊤ (fun i => if i.val < n then f i else ⊤)

theorem le_partialMin (f : Fin 4096 → EReal) (n : ℕ) (x : EReal) :
    x ≤ partialMin f n ↔ ∀ i : Fin 4096, i.val < n → x ≤ f i := by
  unfold partialMin
  rw [le_fold_min_univ]
  constructor
  · intro h i hi
    have := h i
    rwa [if_pos hi] at this
  · intro h i
    by_cases hi : i.val < n
    · rw [if_pos hi]; exact h i hi
    · rw [if_neg hi]; exact le_top

/-- Over every index it is the whole minimum. -/
theorem partialMin_full (f : Fin 4096 → EReal) : partialMin f 4096 = (Finset.univ : Finset (Fin 4096)).fold min ⊤ f :=
  eq_of_le_iff fun x => by
    rw [le_partialMin, le_fold_min_univ]
    exact ⟨fun h i => h i i.isLt, fun h i _ => h i⟩

/-- Over no index it is the top. -/
theorem partialMin_zero (f : Fin 4096 → EReal) : partialMin f 0 = ⊤ :=
  eq_of_le_iff fun x => by
    rw [le_partialMin]
    exact ⟨fun _ => le_top, fun _ i hi => absurd hi (Nat.not_lt_zero _)⟩

/-- Folding in tile `k` — the 512 indices from `512 k` on, presented as a family `g` over `Fin 512` — extends the prefix
    by that tile. -/
theorem partialMin_tile (f : Fin 4096 → EReal) (k : ℕ) (hk : k < 8) (g : Fin 512 → EReal)
    (hg : ∀ r : Fin 512, g r = f ⟨512 * k + r.val, by have := r.isLt; omega⟩) :
    min (partialMin f (512 * k)) ((Finset.univ : Finset (Fin 512)).fold min ⊤ g) = partialMin f (512 * (k + 1)) :=
  eq_of_le_iff fun x => by
    rw [le_min_iff, le_partialMin, le_partialMin, le_fold_min_univ]
    constructor
    · rintro ⟨h1, h2⟩ i hi
      by_cases hlt : i.val < 512 * k
      · exact h1 i hlt
      · have hr : i.val - 512 * k < 512 := by omega
        have h3 := h2 ⟨i.val - 512 * k, hr⟩
        rw [hg] at h3
        have hi' : (⟨512 * k + (i.val - 512 * k), by omega⟩ : Fin 4096) = i := Fin.ext (by simp only; omega)
        rw [hi'] at h3
        exact h3
    · intro h
      refine ⟨fun i hi => h i (by omega), fun r => ?_⟩
      rw [hg]
      exact h _ (by have := r.isLt; simp only; omega)

/-- The first tile alone is the prefix of length 512. -/
theorem partialMin_first (f : Fin 4096 → EReal) (g : Fin 512 → EReal)
    (hg : ∀ r : Fin 512, g r = f ⟨r.val, by have := r.isLt; omega⟩) :
    (Finset.univ : Finset (Fin 512)).fold min ⊤ g = partialMin f 512 := by
  have h := partialMin_tile f 0 (by decide) g (fun r => by rw [hg]; exact congrArg f (Fin.ext (by simp)))
  rw [partialMin_zero, min_eq_right le_top] at h
  exact h

/-! ## The two results -/

/-- The squared distance of target `i` and prediction `j` of batch `b`, the targets and predictions given as
    [4, 4096, 3] arrays. -/
def D (z : EReal) (T P : (⟨3, ![4, 4096, 3]⟩ : Shape).Idx → EReal) (b : Fin 4) (i j : Fin 4096) : EReal :=
  dist2 z (fun d => T (ix3 b i d)) (fun d => P (ix3 b j d))

/-- Per target: the distance to its nearest prediction. -/
def nearestPred (z : EReal) (T P : (⟨3, ![4, 4096, 3]⟩ : Shape).Idx → EReal) (b : Fin 4) (i : Fin 4096) : EReal :=
  Ideal.sqrt ((Finset.univ : Finset (Fin 4096)).fold min ⊤ fun j => D z T P b i j)

/-- Per prediction: the distance to its nearest target. -/
def nearestTarget (z : EReal) (T P : (⟨3, ![4, 4096, 3]⟩ : Shape).Idx → EReal) (b : Fin 4) (j : Fin 4096) : EReal :=
  Ideal.sqrt ((Finset.univ : Finset (Fin 4096)).fold min ⊤ fun i => D z T P b i j)

end Cert.Chamfer

end
-- ==== Proof.IdealValue.Payloads.lean ====
/-
  The body's arithmetic read at an index, on the extended reals. With `pt` the batch's predictions transposed ([1, 3, 4096])
  and `t` the tile's targets ([1, 512, 3]):
    * entry (r, j) of the tile's table is the squared distance of the tile's target r and prediction j — three squared
      coordinate differences added one after the other to the zero constant;
    * the first output's entry r is the square root of row r's minimum over the 4096 predictions;
    * the tile's column minima: entry j is the minimum of column j over the tile's 512 targets;
    * the fold takes the elementwise minimum of the running minimum and the column minima; the last step takes the elementwise
      square root.
-/
import proofs.«104261_j43748536877744_2_alg».proof.Proof.Gen.KernelIdeal.Skeleton
import proofs.«104261_j43748536877744_2_alg».proof.Proof.Spec
import proofs.«104261_j43748536877744_2_alg».proof.Proof.LibMinFold
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal.Gen Cert.Lib.MinFold Cert.Chamfer

/-- A vector's square root at an index is the extended square root of the element. -/
theorem sqrt_vec_apply {s : Shape} (v : FVec Ideal s .f32) (i : s.Idx) : sqrt v i = Ideal.sqrt (v i) := rfl

/-- The zero constant of the body, as an extended real. -/
abbrev zero32 : EReal := Ideal.ofBits .f32 0x00000000#32

/-- A target coordinate, spread along the lanes: entry (r, j) is coordinate `d` of the tile's target r. -/
theorem tcol_apply (x1 : Vec Ideal S1x512x3 .f32) (d : Fin 3) (o : Nat) (ho : o = d.val) (h : S512x3.Slices ![0, o] S512x1)
    (r : Fin 512) (j : Fin 4096) :
    broadcastTo S512x4096 (extractStridedSlice S512x1 ![0, o] (shapeCast S512x3 x1 shapeCasts_S1x512x3_S512x3) h)
      broadcasts_S512x1_S512x4096 (ix2 r j) = x1 (ix3 (0 : Fin 1) r d) := by
  rw [broadcastTo_a1_ab_apply, slice2_axis1_apply o _ h r (0 : Fin 1) d (by rw [ho]; rfl), shapeCast_1ab_ab_apply]

/-- A prediction coordinate, spread along the sublanes: entry (r, j) is coordinate `d` of prediction j. -/
theorem prow_apply (x0 : Vec Ideal S1x3x4096 .f32) (d : Fin 3) (o : Nat) (ho : o = d.val) (h : S3x4096.Slices ![o, 0] S1x4096)
    (r : Fin 512) (j : Fin 4096) :
    broadcastTo S512x4096 (extractStridedSlice S1x4096 ![o, 0] (shapeCast S3x4096 x0 shapeCasts_S1x3x4096_S3x4096) h)
      broadcasts_S1x4096_S512x4096 (ix2 r j) = x0 (ix3 (0 : Fin 1) d j) := by
  rw [broadcastTo_1b_ab_apply, slice2_axis0_apply o _ h (0 : Fin 1) j d (by rw [ho]; rfl), shapeCast_1ab_ab_apply]

/-- The tile's table of squared distances. -/
theorem pay3_apply (x0 : Vec Ideal S1x3x4096 .f32) (x1 : Vec Ideal S1x512x3 .f32) (r : Fin 512) (j : Fin 4096) :
    k0_pay3 (F := Ideal) x0 x1 (ix2 r j)
      = dist2 zero32 (fun d => x1 (ix3 (0 : Fin 1) r d)) (fun d => x0 (ix3 (0 : Fin 1) d j)) := by
  unfold k0_pay3 dist2
  simp only [addf_apply, mulf_apply, subf_apply, broadcast_apply]
  rw [tcol_apply x1 0 0 rfl, tcol_apply x1 1 1 rfl, tcol_apply x1 2 2 rfl,
    prow_apply x0 0 0 rfl, prow_apply x0 1 1 rfl, prow_apply x0 2 2 rfl]
  rfl

/-- A minimum-reduction of the table along the predictions, from the pattern of +infinity, at target row r. -/
theorem rowMin_apply (src : FVec Ideal S512x4096 .f32) (r : Fin 512) :
    multiReduction .minimumf [1] S512 src 0x7F800000#32 reduces_S512x4096_S512 (.inl rfl) rfl (ix1 r)
      = (Finset.univ : Finset (Fin 4096)).fold min ⊤ (fun j => src (ix2 r j)) := by
  refine (minRed_apply src reduces_S512x4096_S512 (.inl rfl) rfl (ix1 r)).trans ?_
  show (Finset.univ : Finset (Fin 4096)).fold min ⊤ (fun j => src (reduces_S512x4096_S512.lift (ix1 r) j)) = _
  refine congrArg (fun g => (Finset.univ : Finset (Fin 4096)).fold min ⊤ g) (funext fun j => congrArg src ?_)
  funext c
  apply Fin.ext
  rw [Shape.Reduces.lift_val]
  match c with
  | ⟨0, _⟩ => rfl
  | ⟨1, _⟩ => rfl

/-- A minimum-reduction of the table along the tile's targets, from the pattern of +infinity, at prediction j. -/
theorem colMin_apply (src : FVec Ideal S512x4096 .f32) (j : Fin 4096) :
    multiReduction .minimumf [0] S4096 src 0x7F800000#32 reduces_S512x4096_S4096 (.inl rfl) rfl (ix1 j)
      = (Finset.univ : Finset (Fin 512)).fold min ⊤ (fun r => src (ix2 r j)) := by
  refine (minRed_apply src reduces_S512x4096_S4096 (.inl rfl) rfl (ix1 j)).trans ?_
  show (Finset.univ : Finset (Fin 512)).fold min ⊤ (fun r => src (reduces_S512x4096_S4096.lift (ix1 j) r)) = _
  refine congrArg (fun g => (Finset.univ : Finset (Fin 512)).fold min ⊤ g) (funext fun r => congrArg src ?_)
  funext c
  apply Fin.ext
  rw [Shape.Reduces.lift_val]
  match c with
  | ⟨0, _⟩ => rfl
  | ⟨1, _⟩ => rfl

/-- The tile's column minima. -/
theorem pay4_apply (x0 : Vec Ideal S1x3x4096 .f32) (x1 : Vec Ideal S1x512x3 .f32) (j : Fin 4096) :
    k0_pay4 (F := Ideal) x0 x1 (ix2 (0 : Fin 1) j)
      = (Finset.univ : Finset (Fin 512)).fold min ⊤ (fun r => k0_pay3 (F := Ideal) x0 x1 (ix2 r j)) := by
  unfold k0_pay4
  dsimp only
  rw [shapeCast_a_1a_apply]
  exact colMin_apply _ j

/-- The column minima as the second output's block. -/
theorem pay6_apply (x0 : Vec Ideal S1x3x4096 .f32) (x1 : Vec Ideal S1x512x3 .f32) (j : Fin 4096) :
    k0_pay6 (F := Ideal) x0 x1 (ix3 (0 : Fin 1) (0 : Fin 1) j) = k0_pay4 (F := Ideal) x0 x1 (ix2 (0 : Fin 1) j) := by
  unfold k0_pay6
  rw [shapeCast_ab_1ab_apply]

/-- The first output's block: the square roots of the rows' minima. -/
theorem pay5_apply (x0 : Vec Ideal S1x3x4096 .f32) (x1 : Vec Ideal S1x512x3 .f32) (r : Fin 512) :
    k0_pay5 (F := Ideal) x0 x1 (ix3 (0 : Fin 1) (0 : Fin 1) r)
      = Ideal.sqrt ((Finset.univ : Finset (Fin 4096)).fold min ⊤ (fun j => k0_pay3 (F := Ideal) x0 x1 (ix2 r j))) := by
  unfold k0_pay5
  dsimp only
  rw [shapeCast_ab_1ab_apply, transpose_ix2_apply, sqrt_vec_apply, shapeCast_a_a1_apply]
  exact congrArg Ideal.sqrt (rowMin_apply _ r)

/-- The fold: the elementwise minimum of what the second output held and the column minima. -/
theorem pay1_apply (v29 : FVec Ideal S1x4096 .f32) (v44 : Vec Ideal S1x1x4096 .f32) (j : Fin 4096) :
    k0_pay1 (F := Ideal) v29 v44 (ix3 (0 : Fin 1) (0 : Fin 1) j) = min (v44 (ix3 (0 : Fin 1) (0 : Fin 1) j)) (v29 (ix2 (0 : Fin 1) j)) := by
  unfold k0_pay1
  rw [shapeCast_ab_1ab_apply, minimumf_apply, shapeCast_1ab_ab_apply]

/-- The last step: the elementwise square root. -/
theorem pay2_apply (v44 : Vec Ideal S1x1x4096 .f32) (j : Fin 4096) :
    k0_pay2 (F := Ideal) v44 (ix3 (0 : Fin 1) (0 : Fin 1) j) = Ideal.sqrt (v44 (ix3 (0 : Fin 1) (0 : Fin 1) j)) := by
  unfold k0_pay2
  rw [shapeCast_ab_1ab_apply, sqrt_vec_apply, shapeCast_1ab_ab_apply]

end Cert.KernelIdeal.Hand

end
-- ==== Proof.IdealValue.Blocks.lean ====
/-
  The input windows' blocks at a grid point, read at an index. Point `t` is tile `t % 8` of batch `t / 8`. The first
  window's block is the batch's transposed predictions whole ([1, 3, 4096] at block index (batch, 0, 0)); the second's is
  the tile's 512 targets ([1, 512, 3] at block index (batch, tile, 0)). A block's coordinate is always block index times
  block size plus the coordinate inside the block. The array the first window reads is what the host transpose before the
  region wrote: the predictions with their last two axes exchanged.
-/
import proofs.«104261_j43748536877744_2_alg».proof.Proof.IdealFrame.Points
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal.Gen

variable (m : (ℓ : Loc nD τ sig) → Buf (Elt Ideal) ℓ)

/-- The four index maps over the grid, decided once. -/
theorem idx_facts : ∀ t : Fin cfg0.N,
    (win0_0.index t 0 = t.val / 8 ∧ win0_0.index t 1 = 0 ∧ win0_0.index t 2 = 0)
    ∧ (win0_1.index t 0 = t.val / 8 ∧ win0_1.index t 1 = t.val % 8 ∧ win0_1.index t 2 = 0)
    ∧ (win0_2.index t 0 = t.val / 8 ∧ win0_2.index t 1 = 0 ∧ win0_2.index t 2 = t.val % 8)
    ∧ (win0_3.index t 0 = t.val / 8 ∧ win0_3.index t 1 = 0 ∧ win0_3.index t 2 = 0) :=
  (by decide +kernel : ∀ t : Fin grid0.N,
    (win0_0.index t 0 = t.val / 8 ∧ win0_0.index t 1 = 0 ∧ win0_0.index t 2 = 0)
    ∧ (win0_1.index t 0 = t.val / 8 ∧ win0_1.index t 1 = t.val % 8 ∧ win0_1.index t 2 = 0)
    ∧ (win0_2.index t 0 = t.val / 8 ∧ win0_2.index t 1 = 0 ∧ win0_2.index t 2 = t.val % 8)
    ∧ (win0_3.index t 0 = t.val / 8 ∧ win0_3.index t 1 = 0 ∧ win0_3.index t 2 = 0))

/-- The region finds, in the first window's array, the predictions transposed. -/
theorem V_v0 (c : Dev nD) :
    V m c main_v0 = transpose S4x3x4096 [0, 2, 1] (m ((c : Thread nD τ).loc main_arg0)) transposes_S4x4096x3_S4x3x4096_0_2_1 := by
  show StableHlo.after hostOps0 (fun b => m (c, b)) (Proc.devRef .tc main_v0) = _
  after_results

/-- So its entry (b, d, j) is coordinate d of prediction j of batch b. -/
theorem V_v0_apply (c : Dev nD) (b : Fin 4) (d : Fin 3) (j : Fin 4096) :
    (V m c main_v0 : S4x3x4096.Idx → EReal) (ix3 b d j) = (m ((c : Thread nD τ).loc main_arg0) : S4x4096x3.Idx → EReal) (ix3 b j d) := by
  rw [V_v0]
  exact transpose_ix3_021_apply _ _ b d j

/-- The first window's block at a point: the batch's transposed predictions. -/
theorem iblk0_apply (c : Dev nD) (t : Fin cfg0.N) (d : Fin 3) (j : Fin 4096) (b : Fin 4) (hb : b.val = t.val / 8) :
    (iblk m c 0 t : S1x3x4096.Idx → EReal) (ix3 (0 : Fin 1) d j) = (V m c main_v0 : S4x3x4096.Idx → EReal) (ix3 b d j) := by
  unfold iblk
  rw [View.read_apply]
  show (V m c main_v0 : S4x3x4096.Idx → EReal) _ = _
  refine congrArg (V m c main_v0 : S4x3x4096.Idx → EReal) (funext fun a => Fin.ext ?_)
  match a with
  | ⟨0, _⟩ => show win0_0.index t 0 * 1 + 1 * 0 = b.val; rw [(idx_facts t).1.1, hb]; omega
  | ⟨1, _⟩ => show win0_0.index t 1 * 3 + 1 * d.val = d.val; rw [(idx_facts t).1.2.1]; omega
  | ⟨2, _⟩ => show win0_0.index t 2 * 4096 + 1 * j.val = j.val; rw [(idx_facts t).1.2.2]; omega

/-- The second window's block at a point: the tile's targets. -/
theorem iblk1_apply (c : Dev nD) (t : Fin cfg0.N) (r : Fin 512) (d : Fin 3) (b : Fin 4) (hb : b.val = t.val / 8)
    (i : Fin 4096) (hi : i.val = 512 * (t.val % 8) + r.val) :
    (iblk m c 1 t : S1x512x3.Idx → EReal) (ix3 (0 : Fin 1) r d) = (m ((c : Thread nD τ).loc main_arg1) : S4x4096x3.Idx → EReal) (ix3 b i d) := by
  rw [← V_main_arg1 m c]
  unfold iblk
  rw [View.read_apply]
  show (V m c main_arg1 : S4x4096x3.Idx → EReal) _ = _
  refine congrArg (V m c main_arg1 : S4x4096x3.Idx → EReal) (funext fun a => Fin.ext ?_)
  match a with
  | ⟨0, _⟩ => show win0_1.index t 0 * 1 + 1 * 0 = b.val; rw [(idx_facts t).2.1.1, hb]; omega
  | ⟨1, _⟩ => show win0_1.index t 1 * 512 + 1 * r.val = i.val; rw [(idx_facts t).2.1.2.1, hi]; omega
  | ⟨2, _⟩ => show win0_1.index t 2 * 3 + 1 * d.val = d.val; rw [(idx_facts t).2.1.2.2]; omega

end Cert.KernelIdeal.Hand

end
-- ==== Proof.IdealValue.Running.lean ====
/-
  What the two outputs' buffers hold after the body at every grid point, in the mathematics' terms. Point `t` is tile
  `t % 8` of batch `b = t / 8`; the tile's target r is target `512 (t % 8) + r` of the batch.
    * The first output's buffer holds, at r, the distance from that target to its nearest prediction — at every point.
    * The second output's buffer holds, at prediction j, the least squared distance to the targets of the tiles folded in so
      far — the prefix of `512 (t % 8 + 1)` targets — and, after the batch's last tile, the square root of the least over all
      4096: the distance from the prediction to its nearest target. By induction on the point.
-/
import proofs.«104261_j43748536877744_2_alg».proof.Proof.IdealValue.CaseValues
import proofs.«104261_j43748536877744_2_alg».proof.Proof.IdealValue.Payloads
import proofs.«104261_j43748536877744_2_alg».proof.Proof.IdealValue.Blocks
import proofs.«104261_j43748536877744_2_alg».proof.Proof.Spec

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal.Gen Cert.Lib.MinFold Cert.Chamfer

variable (m : (ℓ : Loc nD τ sig) → Buf (Elt Ideal) ℓ)

/-- The targets and the predictions as launched, as arrays of extended reals. -/
abbrev Tg (c : Dev nD) : (⟨3, ![4, 4096, 3]⟩ : Shape).Idx → EReal := m ((c : Thread nD τ).loc main_arg1)
abbrev Pd (c : Dev nD) : (⟨3, ![4, 4096, 3]⟩ : Shape).Idx → EReal := m ((c : Thread nD τ).loc main_arg0)

/-- The tile's table at a point: entry (r, j) is the squared distance of the batch's target `512 (t % 8) + r` and
    prediction j. -/
theorem tile_table (c : Dev nD) (t : Fin cfg0.N) (b : Fin 4) (hb : b.val = t.val / 8) (r : Fin 512) (j : Fin 4096)
    (i : Fin 4096) (hi : i.val = 512 * (t.val % 8) + r.val) :
    k0_pay3 (F := Ideal) (iblk m c 0 t) (iblk m c 1 t) (ix2 r j) = D zero32 (Tg m c) (Pd m c) b i j := by
  refine (pay3_apply (iblk m c 0 t) (iblk m c 1 t) r j).trans ?_
  unfold D
  refine congrArg₂ (dist2 zero32) (funext fun d => ?_) (funext fun d => ?_)
  · exact iblk1_apply m c t r d b hb i hi
  · exact (iblk0_apply m c t d j b hb).trans (V_v0_apply m c b d j)

/-- The tile's column minima at a point: the least squared distance from prediction j to the tile's 512 targets. -/
theorem colTile (c : Dev nD) (t : Fin cfg0.N) (b : Fin 4) (hb : b.val = t.val / 8) (j : Fin 4096) :
    k0_pay4 (F := Ideal) (iblk m c 0 t) (iblk m c 1 t) (ix2 (0 : Fin 1) j)
      = (Finset.univ : Finset (Fin 512)).fold min ⊤
          (fun r => D zero32 (Tg m c) (Pd m c) b ⟨512 * (t.val % 8) + r.val, by have := r.isLt; omega⟩ j) := by
  refine (pay4_apply (iblk m c 0 t) (iblk m c 1 t) j).trans ?_
  refine congrArg (fun g => (Finset.univ : Finset (Fin 512)).fold min ⊤ g) (funext fun r => ?_)
  exact tile_table m c t b hb r j _ rfl

/-! ## The three cases at a point, with the point's memrefs and blocks written out -/

theorem atFirst_fst (c : Dev nD) (t : Fin cfg0.N) (h0 : t.val % 8 = 0) :
    (atFirst m c t h0).1 = k0_pay5 (F := Ideal) (iblk m c 0 t) (iblk m c 1 t) := by
  unfold atFirst
  dsimp only
  exact valFirst2 (F := Ideal) c (grid0.coords t) (ms0 t) (hs0 t) (ms1 t) (hs1 t) (ms2 t) (hs2 t) (ms3 t) (hs3 t) (gFirst t h0).1 (gFirst t h0).2.1 (gFirst t h0).2.2 (iblk m c 0 t) (iblk m c 1 t)
theorem atFirst_snd (c : Dev nD) (t : Fin cfg0.N) (h0 : t.val % 8 = 0) :
    (atFirst m c t h0).2 = k0_pay6 (F := Ideal) (iblk m c 0 t) (iblk m c 1 t) := by
  unfold atFirst
  dsimp only
  exact valFirst3 (F := Ideal) c (grid0.coords t) (ms0 t) (hs0 t) (ms1 t) (hs1 t) (ms2 t) (hs2 t) (ms3 t) (hs3 t) (gFirst t h0).1 (gFirst t h0).2.1 (gFirst t h0).2.2 (iblk m c 0 t) (iblk m c 1 t)
theorem atLater_fst (c : Dev nD) (t : Fin cfg0.N) (h0 : ¬t.val % 8 = 0) (h7 : ¬t.val % 8 = 7) (xo : Vec Ideal S1x1x4096 .f32) :
    (atLater m c t h0 h7 xo).1 = k0_pay5 (F := Ideal) (iblk m c 0 t) (iblk m c 1 t) := by
  unfold atLater
  dsimp only
  exact valLater2 (F := Ideal) c (grid0.coords t) (ms0 t) (hs0 t) (ms1 t) (hs1 t) (ms2 t) (hs2 t) (ms3 t) (hs3 t) (gLater t h0 h7).1 (gLater t h0 h7).2.1 (gLater t h0 h7).2.2 (iblk m c 0 t) (iblk m c 1 t) xo
theorem atLater_snd (c : Dev nD) (t : Fin cfg0.N) (h0 : ¬t.val % 8 = 0) (h7 : ¬t.val % 8 = 7) (xo : Vec Ideal S1x1x4096 .f32) :
    (atLater m c t h0 h7 xo).2 = k0_pay1 (F := Ideal) (k0_pay4 (iblk m c 0 t) (iblk m c 1 t)) xo := by
  unfold atLater
  dsimp only
  exact valLater3 (F := Ideal) c (grid0.coords t) (ms0 t) (hs0 t) (ms1 t) (hs1 t) (ms2 t) (hs2 t) (ms3 t) (hs3 t) (gLater t h0 h7).1 (gLater t h0 h7).2.1 (gLater t h0 h7).2.2 (iblk m c 0 t) (iblk m c 1 t) xo
theorem atLast_fst (c : Dev nD) (t : Fin cfg0.N) (h7 : t.val % 8 = 7) (xo : Vec Ideal S1x1x4096 .f32) :
    (atLast m c t h7 xo).1 = k0_pay5 (F := Ideal) (iblk m c 0 t) (iblk m c 1 t) := by
  unfold atLast
  dsimp only
  exact valLast2 (F := Ideal) c (grid0.coords t) (ms0 t) (hs0 t) (ms1 t) (hs1 t) (ms2 t) (hs2 t) (ms3 t) (hs3 t) (gLast t h7).1 (gLast t h7).2.1 (gLast t h7).2.2 (iblk m c 0 t) (iblk m c 1 t) xo
theorem atLast_snd (c : Dev nD) (t : Fin cfg0.N) (h7 : t.val % 8 = 7) (xo : Vec Ideal S1x1x4096 .f32) :
    (atLast m c t h7 xo).2 = k0_pay2 (F := Ideal) (k0_pay1 (k0_pay4 (iblk m c 0 t) (iblk m c 1 t)) xo) := by
  unfold atLast
  dsimp only
  exact valLast3 (F := Ideal) c (grid0.coords t) (ms0 t) (hs0 t) (ms1 t) (hs1 t) (ms2 t) (hs2 t) (ms3 t) (hs3 t) (gLast t h7).1 (gLast t h7).2.1 (gLast t h7).2.2 (iblk m c 0 t) (iblk m c 1 t) xo

/-- The first output's buffer after any point. -/
theorem fst_apply (c : Dev nD) (t : Fin cfg0.N) (b : Fin 4) (hb : b.val = t.val / 8) (r : Fin 512)
    (i : Fin 4096) (hi : i.val = 512 * (t.val % 8) + r.val) :
    (outsAt m c t.val t.isLt).1 (ix3 (0 : Fin 1) (0 : Fin 1) r) = nearestPred zero32 (Tg m c) (Pd m c) b i := by
  have h5 : (outsAt m c t.val t.isLt).1 = k0_pay5 (F := Ideal) (iblk m c 0 t) (iblk m c 1 t) := by
    by_cases h0 : t.val % 8 = 0
    · rw [outsAt_first m c t h0]; exact atFirst_fst m c t h0
    · by_cases h7 : t.val % 8 = 7
      · rw [outsAt_last m c t h7]; exact atLast_fst m c t h7 _
      · rw [outsAt_later m c t h0 h7]; exact atLater_fst m c t h0 h7 _
  rw [h5]
  refine (pay5_apply (iblk m c 0 t) (iblk m c 1 t) r).trans ?_
  unfold nearestPred
  refine congrArg Ideal.sqrt (congrArg (fun g => (Finset.univ : Finset (Fin 4096)).fold min ⊤ g) (funext fun j => ?_))
  exact tile_table m c t b hb r j i hi

/-- The second output's buffer after a batch's first tile: the minimum over the first 512 targets. -/
theorem stepFirst (c : Dev nD) (t : Fin cfg0.N) (h0 : t.val % 8 = 0) (b : Fin 4) (hb : b.val = t.val / 8) (j : Fin 4096) :
    (outsAt m c t.val t.isLt).2 (ix3 (0 : Fin 1) (0 : Fin 1) j)
      = partialMin (fun i => D zero32 (Tg m c) (Pd m c) b i j) 512 := by
  have e : (outsAt m c t.val t.isLt).2 = k0_pay6 (F := Ideal) (iblk m c 0 t) (iblk m c 1 t) := by
    rw [outsAt_first m c t h0]; exact atFirst_snd m c t h0
  rw [e]
  refine (pay6_apply _ _ j).trans ?_
  rw [colTile m c t b hb j]
  refine partialMin_first (fun i => D zero32 (Tg m c) (Pd m c) b i j) _ (fun r => ?_)
  exact congrArg (fun i => D zero32 (Tg m c) (Pd m c) b i j) (Fin.ext (by show 512 * (t.val % 8) + r.val = r.val; omega))

/-- After a middle tile: the prefix grows by the tile. -/
theorem stepLater (c : Dev nD) (t : Fin cfg0.N) (h0 : ¬t.val % 8 = 0) (h7 : ¬t.val % 8 = 7) (b : Fin 4) (hb : b.val = t.val / 8)
    (j : Fin 4096)
    (hprev : (outsAt m c (t.val - 1) (Nat.lt_of_le_of_lt (Nat.sub_le _ _) t.isLt)).2 (ix3 (0 : Fin 1) (0 : Fin 1) j)
      = partialMin (fun i => D zero32 (Tg m c) (Pd m c) b i j) (512 * (t.val % 8))) :
    (outsAt m c t.val t.isLt).2 (ix3 (0 : Fin 1) (0 : Fin 1) j)
      = partialMin (fun i => D zero32 (Tg m c) (Pd m c) b i j) (512 * (t.val % 8 + 1)) := by
  have e : (outsAt m c t.val t.isLt).2 = k0_pay1 (F := Ideal) (k0_pay4 (iblk m c 0 t) (iblk m c 1 t))
      (outsAt m c (t.val - 1) (Nat.lt_of_le_of_lt (Nat.sub_le _ _) t.isLt)).2 := by
    rw [outsAt_later m c t h0 h7]; exact atLater_snd m c t h0 h7 _
  rw [e]
  refine (pay1_apply _ _ j).trans ?_
  rw [hprev, colTile m c t b hb j]
  exact partialMin_tile _ (t.val % 8) (Nat.mod_lt _ (by decide)) _ (fun r => rfl)

/-- After a batch's last tile: the square root of the minimum over all the batch's targets. -/
theorem stepLast (c : Dev nD) (t : Fin cfg0.N) (h7 : t.val % 8 = 7) (b : Fin 4) (hb : b.val = t.val / 8) (j : Fin 4096)
    (hprev : (outsAt m c (t.val - 1) (Nat.lt_of_le_of_lt (Nat.sub_le _ _) t.isLt)).2 (ix3 (0 : Fin 1) (0 : Fin 1) j)
      = partialMin (fun i => D zero32 (Tg m c) (Pd m c) b i j) (512 * (t.val % 8))) :
    (outsAt m c t.val t.isLt).2 (ix3 (0 : Fin 1) (0 : Fin 1) j) = nearestTarget zero32 (Tg m c) (Pd m c) b j := by
  have e : (outsAt m c t.val t.isLt).2 = k0_pay2 (F := Ideal) (k0_pay1 (k0_pay4 (iblk m c 0 t) (iblk m c 1 t))
      (outsAt m c (t.val - 1) (Nat.lt_of_le_of_lt (Nat.sub_le _ _) t.isLt)).2) := by
    rw [outsAt_last m c t h7]; exact atLast_snd m c t h7 _
  rw [e]
  refine (pay2_apply _ j).trans ?_
  unfold nearestTarget
  refine congrArg Ideal.sqrt ?_
  refine (pay1_apply _ _ j).trans ?_
  rw [hprev, colTile m c t b hb j,
    partialMin_tile _ (t.val % 8) (Nat.mod_lt _ (by decide)) _ (fun r => rfl), h7]
  exact partialMin_full _

/-- The second output's buffer after every point, by induction on the point. -/
theorem snd_apply (c : Dev nD) : ∀ (n : ℕ) (h : n < cfg0.N) (b : Fin 4) (hb : b.val = n / 8) (j : Fin 4096),
    (¬n % 8 = 7 → (outsAt m c n h).2 (ix3 (0 : Fin 1) (0 : Fin 1) j)
        = partialMin (fun i => D zero32 (Tg m c) (Pd m c) b i j) (512 * (n % 8 + 1)))
    ∧ (n % 8 = 7 → (outsAt m c n h).2 (ix3 (0 : Fin 1) (0 : Fin 1) j) = nearestTarget zero32 (Tg m c) (Pd m c) b j) := by
  intro n
  induction n with
  | zero =>
    intro h b hb j
    exact ⟨fun _ => stepFirst m c ⟨0, h⟩ rfl b hb j, fun h7 => absurd h7 (by decide)⟩
  | succ n ih =>
    intro h b hb j
    by_cases h0 : (n + 1) % 8 = 0
    · refine ⟨fun _ => ?_, fun h7 => by omega⟩
      rw [h0]
      exact stepFirst m c ⟨n + 1, h⟩ h0 b hb j
    · have hb' : b.val = n / 8 := by omega
      have hmod : (n + 1) % 8 = n % 8 + 1 := by omega
      have hprev := (ih (Nat.lt_of_succ_lt h) b hb' j).1 (by omega)
      rw [← hmod] at hprev
      by_cases h7 : (n + 1) % 8 = 7
      · exact ⟨fun hne => absurd h7 hne, fun _ => stepLast m c ⟨n + 1, h⟩ h7 b hb j hprev⟩
      · exact ⟨fun _ => stepLater m c ⟨n + 1, h⟩ h0 h7 b hb j hprev, fun h7' => absurd h7' h7⟩

end Cert.KernelIdeal.Hand

end
-- ==== Proof.IdealValue.Final.lean ====
/-
  The two result arrays of the region after the run. The first output's blocks ([1, 1, 512] at block index (batch, 0, tile))
  are written back at every point and tile the [4, 1, 4096] array; the second's ([1, 1, 4096] at block index (batch, 0, 0)) are
  written back after each batch's last tile and tile their array too. What a point writes back is the corresponding block of
  ONE function of the whole array's index: per (batch, target), the distance to the nearest prediction; per (batch,
  prediction), the distance to the nearest target.
-/
import proofs.«104261_j43748536877744_2_alg».proof.Proof.IdealValue.Running
import proofs.«104261_j43748536877744_2_alg».proof.Proof.IdealFrame.Run

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal.Gen Cert.Lib.MinFold Cert.Chamfer

variable (m : (ℓ : Loc nD τ sig) → Buf (Elt Ideal) ℓ)

/-- The first result array: at (b, 0, i), the distance from target i of batch b to its nearest prediction. -/
def nearPredArr (c : Dev nD) : S4x1x4096.Idx → EReal := fun y =>
  nearestPred zero32 (Tg m c) (Pd m c) ⟨(y 0).val, (y 0).isLt⟩ ⟨(y 2).val, (y 2).isLt⟩

/-- The second result array: at (b, 0, j), the distance from prediction j of batch b to its nearest target. -/
def nearTargetArr (c : Dev nD) : S4x1x4096.Idx → EReal := fun y =>
  nearestTarget zero32 (Tg m c) (Pd m c) ⟨(y 0).val, (y 0).isLt⟩ ⟨(y 2).val, (y 2).isLt⟩

theorem t_lt (t : Fin cfg0.N) : t.val < 32 := lt_of_lt_of_eq t.isLt (show cfg0.N = 32 from N_0)

/-- What a point writes back of the first output is its block of `nearPredArr`. -/
theorem flushedA (c : Dev nD) (t : Fin cfg0.N) :
    (dats m 0 c).flushed 2 t = ((cfg0.win 2).blk t).view.read (Elt Ideal) (nearPredArr m c) := by
  show (cfg0.win 2).cut (grid0.coords t) ((dats m 0 c).after 2 t) = _
  rw [after2]
  funext y
  show ((outsAt m c t.val t.isLt).1 : S1x1x512.Idx → EReal) y = nearPredArr m c (((cfg0.win 2).blk t).view.emb y)
  obtain ⟨u, v, r, rfl⟩ : ∃ (u : Fin 1) (v : Fin 1) (r : Fin 512), y = ix3 u v r := ⟨y 0, y 1, y 2, eq_ix3 y⟩
  obtain rfl : u = 0 := Subsingleton.elim _ _
  obtain rfl : v = 0 := Subsingleton.elim _ _
  have ht := t_lt t
  rw [fst_apply m c t ⟨t.val / 8, by omega⟩ rfl r ⟨512 * (t.val % 8) + r.val, by have := r.isLt; omega⟩ rfl]
  unfold nearPredArr
  refine congrArg₂ (nearestPred zero32 (Tg m c) (Pd m c)) (Fin.ext ?_) (Fin.ext ?_)
  · show t.val / 8 = win0_2.index t 0 * 1 + 1 * 0
    rw [(idx_facts t).2.2.1.1]; omega
  · show 512 * (t.val % 8) + r.val = win0_2.index t 2 * 512 + 1 * r.val
    rw [(idx_facts t).2.2.1.2.2]; omega

/-- What a point writes back of the second output — after a batch's last tile — is its block of `nearTargetArr`. -/
theorem flushedB (c : Dev nD) (t : Fin cfg0.N) (hf : (cfg0.win 3).flush t = true) :
    (dats m 0 c).flushed 3 t = ((cfg0.win 3).blk t).view.read (Elt Ideal) (nearTargetArr m c) := by
  have h7 : t.val % 8 = 7 := (flush0_3 t).mp hf
  show (cfg0.win 3).cut (grid0.coords t) ((dats m 0 c).after 3 t) = _
  rw [after3]
  funext y
  show ((outsAt m c t.val t.isLt).2 : S1x1x4096.Idx → EReal) y = nearTargetArr m c (((cfg0.win 3).blk t).view.emb y)
  obtain ⟨u, v, j, rfl⟩ : ∃ (u : Fin 1) (v : Fin 1) (j : Fin 4096), y = ix3 u v j := ⟨y 0, y 1, y 2, eq_ix3 y⟩
  obtain rfl : u = 0 := Subsingleton.elim _ _
  obtain rfl : v = 0 := Subsingleton.elim _ _
  have ht := t_lt t
  rw [(snd_apply m c t.val t.isLt ⟨t.val / 8, by omega⟩ rfl j).2 h7]
  unfold nearTargetArr
  refine congrArg₂ (nearestTarget zero32 (Tg m c) (Pd m c)) (Fin.ext ?_) (Fin.ext ?_)
  · show t.val / 8 = win0_3.index t 0 * 1 + 1 * 0
    rw [(idx_facts t).2.2.2.1]; omega
  · show j.val = win0_3.index t 2 * 4096 + 1 * j.val
    rw [(idx_facts t).2.2.2.2.2]; omega

/-- An index of the first result array is in a point's block iff each coordinate is in the block's range. -/
theorem mem_blkA (t : Fin cfg0.N) (i : S4x1x4096.Idx) :
    i ∈ ((cfg0.win 2).blk t).view.set ↔ ∀ a : Fin 3, win0_2.index t a * S1x1x512.size a ≤ (i a).val ∧ (i a).val < win0_2.index t a * S1x1x512.size a + S1x1x512.size a := by
  show i ∈ ((View.whole main_v1_0).slice (win0_2.rect t)).set ↔ _
  rw [View.set_slice_whole, Rect.mem_set_unit]
  exact Iff.rfl

theorem mem_blkB (t : Fin cfg0.N) (i : S4x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v1_1).slice (win0_3.rect t)).set ↔ _
  rw [View.set_slice_whole, Rect.mem_set_unit]
  exact Iff.rfl

/-- Index (b, 0, i) of the first result array is in the block of tile `i / 512` of batch b. -/
theorem coverA (i : S4x1x4096.Idx) : ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 4096 := (i 2).isLt
  let t : Fin cfg0.N := ⟨8 * (i 0).val + (i 2).val / 512, by rw [show cfg0.N = 32 from N_0]; omega⟩
  have e0 : win0_2.index t 0 = (8 * (i 0).val + (i 2).val / 512) / 8 := (idx_facts t).2.2.1.1
  have e1 : win0_2.index t 1 = 0 := (idx_facts t).2.2.1.2.1
  have e2 : win0_2.index t 2 = (8 * (i 0).val + (i 2).val / 512) % 8 := (idx_facts t).2.2.1.2.2
  refine ⟨t, flush0_2 t, ?_⟩
  rw [mem_blkA]
  intro a
  match a with
  | ⟨0, _⟩ => show win0_2.index t 0 * 1 ≤ (i 0).val ∧ (i 0).val < win0_2.index t 0 * 1 + 1; rw [e0]; omega
  | ⟨1, _⟩ => show win0_2.index t 1 * 1 ≤ (i 1).val ∧ (i 1).val < win0_2.index t 1 * 1 + 1; rw [e1]; omega
  | ⟨2, _⟩ => show win0_2.index t 2 * 512 ≤ (i 2).val ∧ (i 2).val < win0_2.index t 2 * 512 + 512; rw [e2]; omega

/-- Index (b, 0, j) of the second result array is in the block written back after batch b's last tile. -/
theorem coverB (i : S4x1x4096.Idx) : ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 4096 := (i 2).isLt
  let t : Fin cfg0.N := ⟨8 * (i 0).val + 7, by rw [show cfg0.N = 32 from N_0]; omega⟩
  have e0 : win0_3.index t 0 = (8 * (i 0).val + 7) / 8 := (idx_facts t).2.2.2.1
  have e1 : win0_3.index t 1 = 0 := (idx_facts t).2.2.2.2.1
  have e2 : win0_3.index t 2 = 0 := (idx_facts t).2.2.2.2.2
  refine ⟨t, (flush0_3 t).mpr (by show (8 * (i 0).val + 7) % 8 = 7; omega), ?_⟩
  rw [mem_blkB]
  intro a
  match a with
  | ⟨0, _⟩ => show win0_3.index t 0 * 1 ≤ (i 0).val ∧ (i 0).val < win0_3.index t 0 * 1 + 1; rw [e0]; omega
  | ⟨1, _⟩ => show win0_3.index t 1 * 1 ≤ (i 1).val ∧ (i 1).val < win0_3.index t 1 * 1 + 1; rw [e1]; omega
  | ⟨2, _⟩ => show win0_3.index t 2 * 4096 ≤ (i 2).val ∧ (i 2).val < win0_3.index t 2 * 4096 + 4096; rw [e2]; omega

/-- The first result array after the run. -/
theorem finalA (c : Dev nD) : (dats m 0 c).arrAt 2 cfg0.N = nearPredArr m c :=
  (dats m 0 c).arrAt_eq_of_cover 2 (nearPredArr m c) (fun t _ => flushedA m c t) coverA

/-- The second result array after the run. -/
theorem finalB (c : Dev nD) : (dats m 0 c).arrAt 3 cfg0.N = nearTargetArr m c :=
  (dats m 0 c).arrAt_eq_of_cover 3 (nearTargetArr m c) (fun t hf => flushedB m c t hf) coverB

end Cert.KernelIdeal.Hand

end
-- ==== Proof.Means.lean ====
/-
  The last step both programs share: the mean of each of two [4, 4096] arrays — its sum from zero divided by 16384 — and the
  sum of the two means. Stated once, over the shape facts it needs, so that the two programs' results are the same term.
-/
import Idealize.ShloMosaic.PureOps
import Idealize.ShloMosaic.PureOps.Ideal

noncomputable section

open Idealize.ShloMosaic

namespace Cert.Chamfer

/-- The mean of `a` plus the mean of `b`. -/
def meanSum (h1 : (⟨2, ![4, 4096]⟩ : Shape).ReducesTo [0, 1] ⟨0, ![]⟩) (h2 : 0 < (⟨0, ![]⟩ : Shape).numel)
    (a b : FVec Ideal ⟨2, ![4, 4096]⟩ .f32) : FVec Ideal ⟨0, ![]⟩ .f32 :=
  addf
    (Host.divf (Host.reduceAdd a (constant (F := Ideal) ⟨0, ![]⟩ .f32 0x00000000#32) h1 h2) (constant (F := Ideal) ⟨0, ![]⟩ .f32 0x46800000#32))
    (Host.divf (Host.reduceAdd b (constant (F := Ideal) ⟨0, ![]⟩ .f32 0x00000000#32) h1 h2) (constant (F := Ideal) ⟨0, ![]⟩ .f32 0x46800000#32))

end Cert.Chamfer

end
-- ==== Proof.IdealValue.Tail.lean ====
/-
  The idealized kernel's run, read: after the region the host lines reshape the two result arrays to [4, 4096], take each
  one's mean and add the two means. The program's result is that mean-sum of the two arrays of nearest distances; its two
  argument arrays end as launched.
-/
import proofs.«104261_j43748536877744_2_alg».proof.Proof.IdealValue.Final
import proofs.«104261_j43748536877744_2_alg».proof.Proof.IdealFrame.Run
import proofs.«104261_j43748536877744_2_alg».proof.Proof.Means
import Idealize.ShloMosaic.Lib.StableHlo.Run
import Idealize.ShloMosaic.Lib.Tactic

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal.Gen Cert.Lib.MinFold Cert.Chamfer

variable (m : (ℓ : Loc nD τ sig) → Buf (Elt Ideal) ℓ) (ρ : Dev nD → PrngReg)

/-- The program's result from the two result arrays of the region. -/
abbrev result (c : Dev nD) : FVec Ideal S_ .f32 :=
  meanSum reducesTo_S4x4096_S_d0_1 h_S_
    (shapeCast S4x4096 (nearPredArr m c) shapeCasts_S4x1x4096_S4x4096)
    (shapeCast S4x4096 (nearTargetArr m c) shapeCasts_S4x1x4096_S4x4096)

/-- The host lines after the region compute it from the arrays the region leaves. -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  have eA : Pipeline.withArrays (cfgs 0).spec c (V0 m c) (fun w => (dats m 0 c).arrAt w (cfgs 0).N) (Proc.devRef .tc main_v1_0)
      = nearPredArr m c := (Pipeline.withArrays_arr spec0 launch0.win.arr_inj c _ _ 2).trans (finalA m c)
  have eB : Pipeline.withArrays (cfgs 0).spec c (V0 m c) (fun w => (dats m 0 c).arrAt w (cfgs 0).N) (Proc.devRef .tc main_v1_1)
      = nearTargetArr m c := (Pipeline.withArrays_arr spec0 launch0.win.arr_inj c _ _ 3).trans (finalB m c)
  rw [eA, eB]
  rfl

/-- The run of the idealized kernel, read at its result and its arguments. -/
theorem value_run : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Hand

end
-- ==== Proof.RefValue.Reference.lean ====
/-
  The reference read in the mathematics' terms. Entry (b, i, j) of its distance table is the square root of the squared
  distance of target i and prediction j — the zero constant plus the sum of the three squared coordinate differences, which is
  the one-after-the-other sum. Its two minimum-reductions of that table, along the predictions and along the targets, are the
  minima from the top of those square roots, and the square root, being monotone and fixing the top, comes out of the minimum:
  they are the distances to the nearest prediction and to the nearest target. Its result is the shared mean-sum of the two.
-/
import proofs.«104261_j43748536877744_2_alg».proof.Proof.Gen.ReferenceIdeal.Run
import proofs.«104261_j43748536877744_2_alg».proof.Proof.Gen.ReferenceIdeal.Read
import proofs.«104261_j43748536877744_2_alg».proof.Proof.Spec
import proofs.«104261_j43748536877744_2_alg».proof.Proof.Means
import proofs.«104261_j43748536877744_2_alg».proof.Proof.LibMinFold
import Idealize.ShloMosaic.Lib.ValueIdx

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Lib.MinFold Cert.Chamfer

/-- The distance table: at (b, i, j), the square root of the squared distance of target i (of `x1`) and prediction j (of
    `x0`). -/
theorem table_apply (x0 x1 : (⟨S4x4096x3, .f32⟩ : BufTy).Contents (Elt Ideal)) (b : Fin 4) (i j : Fin 4096) :
    val_main_v7 (F := Ideal) x0 x1 (ix3 b i j) = Ideal.sqrt (D (Ideal.ofBits .f32 0x00000000#32) x1 x0 b i j) := by
  rw [val_main_v7_apply, val_main_v6_apply]
  unfold D
  rw [dist2_eq_sum]
  show Ideal.sqrt (Ideal.ofBits .f32 0x00000000#32 + _) = _
  refine congrArg Ideal.sqrt (congrArg (fun s => Ideal.ofBits .f32 0x00000000#32 + s) (Finset.sum_congr rfl fun d _ => ?_))
  rw [val_main_v5_apply, val_main_v4_apply, val_main_v2_apply, val_main_v0_apply, val_main_v3_apply, val_main_v1_apply]
  have e1 : idx_main_v0 (idx_main_v2 (idx_main_v6 (ix3 b i j) d)) = ix3 b i d :=
    funext fun a => Fin.ext (by match a with | ⟨0, _⟩ => rfl | ⟨1, _⟩ => rfl | ⟨2, _⟩ => rfl)
  have e2 : idx_main_v1 (idx_main_v3 (idx_main_v6 (ix3 b i j) d)) = ix3 b j d :=
    funext fun a => Fin.ext (by match a with | ⟨0, _⟩ => rfl | ⟨1, _⟩ => rfl | ⟨2, _⟩ => rfl)
  rw [e1, e2]
  rfl

theorem red2 : S4x4096x4096.Reduces [2] S4x4096 := by decide
theorem red1 : S4x4096x4096.Reduces [1] S4x4096 := by decide

/-- The minimum of the table along the predictions: per (batch, target), the distance to the nearest prediction. -/
theorem nearPred_apply (x0 x1 : (⟨S4x4096x3, .f32⟩ : BufTy).Contents (Elt Ideal)) (b : Fin 4) (i : Fin 4096) :
    val_main_v8 (F := Ideal) x0 x1 (ix2 b i) = nearestPred (Ideal.ofBits .f32 0x00000000#32) x1 x0 b i := by
  unfold val_main_v8 val_main_cst_0
  refine (hostMinRed_apply (val_main_v7 (F := Ideal) x0 x1) reducesTo_S4x4096x4096_S4x4096_d2 red2 h_S_ (ix2 b i)).trans ?_
  unfold nearestPred
  rw [sqrt_fold_min]
  show (Finset.univ : Finset (Fin 4096)).fold min ⊤ (fun k => val_main_v7 (F := Ideal) x0 x1 (red2.lift (ix2 b i) k)) = _
  refine congrArg (fun g => (Finset.univ : Finset (Fin 4096)).fold min ⊤ g) (funext fun k => ?_)
  have e : red2.lift (ix2 b i) k = ix3 b i k := funext fun c => Fin.ext (by
    rw [Shape.Reduces.lift_val]
    match c with
    | ⟨0, _⟩ => rfl
    | ⟨1, _⟩ => rfl
    | ⟨2, _⟩ => rfl)
  rw [e]
  exact table_apply x0 x1 b i k

/-- The minimum of the table along the targets: per (batch, prediction), the distance to the nearest target. -/
theorem nearTarget_apply (x0 x1 : (⟨S4x4096x3, .f32⟩ : BufTy).Contents (Elt Ideal)) (b : Fin 4) (j : Fin 4096) :
    val_main_v9 (F := Ideal) x0 x1 (ix2 b j) = nearestTarget (Ideal.ofBits .f32 0x00000000#32) x1 x0 b j := by
  unfold val_main_v9 val_main_cst_1
  refine (hostMinRed_apply (val_main_v7 (F := Ideal) x0 x1) reducesTo_S4x4096x4096_S4x4096_d1 red1 h_S_ (ix2 b j)).trans ?_
  unfold nearestTarget
  rw [sqrt_fold_min]
  show (Finset.univ : Finset (Fin 4096)).fold min ⊤ (fun k => val_main_v7 (F := Ideal) x0 x1 (red1.lift (ix2 b j) k)) = _
  refine congrArg (fun g => (Finset.univ : Finset (Fin 4096)).fold min ⊤ g) (funext fun k => ?_)
  have e : red1.lift (ix2 b j) k = ix3 b k j := funext fun c => Fin.ext (by
    rw [Shape.Reduces.lift_val]
    match c with
    | ⟨0, _⟩ => rfl
    | ⟨1, _⟩ => rfl
    | ⟨2, _⟩ => rfl)
  rw [e]
  exact table_apply x0 x1 b k j

/-- The reference's result is the mean-sum of its two minimum-reduced arrays. -/
theorem result_eq (x0 x1 : (⟨S4x4096x3, .f32⟩ : BufTy).Contents (Elt Ideal)) :
    val_main_v14 (F := Ideal) x0 x1
      = meanSum reducesTo_S4x4096_S_d0_1 h_S_ (val_main_v8 (F := Ideal) x0 x1) (val_main_v9 (F := Ideal) x0 x1) := by
  unfold val_main_v14 val_main_v11 val_main_v13 val_main_v10 val_main_v12 val_main_cst_2 val_main_cst_3 val_main_cst_4 val_main_cst_5 meanSum
  rfl

end Cert.ReferenceIdeal.RefValue

end
-- ==== Proof.Bridge.lean ====
/-
  The two programs meet: the idealized kernel's two result arrays, reshaped from [4, 1, 4096] to [4, 4096], are the
  reference's two minimum-reduced arrays — index by index both are the distance to the nearest prediction, respectively to
  the nearest target, of the same targets and predictions.
-/
import proofs.«104261_j43748536877744_2_alg».proof.Proof.IdealValue.Final
import proofs.«104261_j43748536877744_2_alg».proof.Proof.RefValue.Reference
import Idealize.ShloMosaic.Lib.ValueIdx
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Cert.Chamfer

variable (m : (ℓ : Loc Cert.KernelIdeal.nD Cert.KernelIdeal.τ Cert.KernelIdeal.sig) → Buf (Elt Ideal) ℓ)

/-- A [4, 1, 4096] array reshaped to [4, 4096] reads, at (b, i), the array at (b, 0, i). -/
theorem reshape_apply {α : Type} (x : (⟨3, ![4, 1, 4096]⟩ : Shape).Idx → α)
    (h : (⟨3, ![4, 1, 4096]⟩ : Shape).ShapeCasts ⟨2, ![4, 4096]⟩) (b : Fin 4) (i : Fin 4096) :
    shapeCast ⟨2, ![4, 4096]⟩ x h (ix2 b i) = x (ix3 b (0 : Fin 1) i) :=
  shapeCast_apply x h _ _ (by
    rw [Shape.rowMajor_val_three, Shape.rowMajor_val_two]
    show (b.val * 1 + 0) * 4096 + i.val = b.val * 4096 + i.val
    omega)

/-- The distances to the nearest prediction. -/
theorem nearPred_eq (c : Dev Cert.KernelIdeal.nD) :
    shapeCast Cert.KernelIdeal.S4x4096 (Cert.KernelIdeal.Hand.nearPredArr m c) Cert.KernelIdeal.Facts₀.shapeCasts_S4x1x4096_S4x4096
      = Cert.ReferenceIdeal.Read.val_main_v8 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext y
  obtain ⟨b, i, rfl⟩ : ∃ (b : Fin 4) (i : Fin 4096), y = ix2 b i := ⟨y 0, y 1, eq_ix2 y⟩
  refine (reshape_apply _ _ b i).trans ?_
  refine Eq.trans ?_ (Cert.ReferenceIdeal.RefValue.nearPred_apply _ _ b i).symm
  rfl

/-- The distances to the nearest target. -/
theorem nearTarget_eq (c : Dev Cert.KernelIdeal.nD) :
    shapeCast Cert.KernelIdeal.S4x4096 (Cert.KernelIdeal.Hand.nearTargetArr m c) Cert.KernelIdeal.Facts₀.shapeCasts_S4x1x4096_S4x4096
      = Cert.ReferenceIdeal.Read.val_main_v9 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext y
  obtain ⟨b, j, rfl⟩ : ∃ (b : Fin 4) (j : Fin 4096), y = ix2 b j := ⟨y 0, y 1, eq_ix2 y⟩
  refine (reshape_apply _ _ b j).trans ?_
  refine Eq.trans ?_ (Cert.ReferenceIdeal.RefValue.nearTarget_apply _ _ b j).symm
  rfl

end Cert.Bridge

end
-- ==== Proof.lean ====
/-
  Chamfer distance of two point clouds, batched: for every batch, the mean over the targets of the distance to the nearest
  prediction plus the mean over the predictions of the distance to the nearest target.

  The kernel walks a batch's 4096 targets in 8 tiles of 512 against all 4096 predictions. Per tile it forms the table of
  squared distances (three squared coordinate differences added one after the other to zero), takes each row's minimum and
  stores its square root (first result), and folds the columns' minima into a running elementwise minimum kept in the
  second result's buffer across the batch's tiles, whose square root it takes after the last tile. The reference forms the
  whole 4096 x 4096 table of distances (square roots of the sums of the three squares) and takes its minima along each axis.

  On the extended reals the two agree index by index: the sum of three squares does not depend on how it is associated; a
  minimum over 4096 targets is the minimum over the eight tiles' minima; and the extended square root is monotone and fixes
  the top, so it commutes with a minimum taken from the top. None of this needs the inputs finite. The two means and their
  sum are the same host operations on both sides.

  The frames: the body has three cases, selected by the tile index (first, middle, last tile of a batch); each case's run is
  found once, the second result's buffer is carried from tile to tile within a batch, and the pipeline's launch theorem gives
  the run of the whole program, at the word level and at the extended reals alike. The reference is a straight line of host
  operations.
-/
import proofs.«104261_j43748536877744_2_alg».proof.Defs
import proofs.«104261_j43748536877744_2_alg».proof.Proof.Gen.Kernel
import proofs.«104261_j43748536877744_2_alg».proof.Proof.Gen.KernelIdeal
import proofs.«104261_j43748536877744_2_alg».proof.Proof.Gen.ReferenceIdeal
import proofs.«104261_j43748536877744_2_alg».proof.Proof.Gen.Pre_finite_inputs
import proofs.«104261_j43748536877744_2_alg».proof.Proof.Gen.ReferenceIdeal.Run
import proofs.«104261_j43748536877744_2_alg».proof.Proof.Gen.ReferenceIdeal.Read
import proofs.«104261_j43748536877744_2_alg».proof.Proof.BitsFrame.Run
import proofs.«104261_j43748536877744_2_alg».proof.Proof.IdealFrame.Run
import proofs.«104261_j43748536877744_2_alg».proof.Proof.IdealValue.Tail
import proofs.«104261_j43748536877744_2_alg».proof.Proof.RefValue.Reference
import proofs.«104261_j43748536877744_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same extended real: the mean-sum of the
    two arrays of nearest distances. -/
theorem algebraic : Cert.algebraic_KernelIdeal_ReferenceIdeal := by
  intro m ρ m' ρ' _ hagree
  refine ⟨fun c => Cert.KernelIdeal.Hand.result m c, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2,
    ← Cert.Bridge.nearPred_eq m c, ← Cert.Bridge.nearTarget_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
